-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S16x10 .f32) (main_arg6 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x10 .f32 := Host.absf main_arg5
  let main_cst_6 : FVec F S_ .f32 := constant S_ .f32 0x7F800000#32
  let main_v20 : FVec F S16x10 .f32 := broadcastInDim S16x10 ![] bcast_S_S16x10 main_cst_6
  let main_v21 : IVec S16x10 1 := cmpf .olt main_v19 main_v20
  let main_c_7 : IVec S_ 1 := constantI S_ 1 1#1
  let main_v22 : IVec S_ 1 := (fun x v => Host.reduce IntOp.andi x v reducesTo_S16x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x10 .f32) (main_arg6 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x10 : Shape := ⟨2, ![100000, 10]⟩
abbrev S5000x10 : Shape := ⟨2, ![5000, 10]⟩
abbrev S3300000x10 : Shape := ⟨2, ![3300000, 10]⟩
abbrev S1x10 : Shape := ⟨2, ![1, 10]⟩
abbrev S5000 : Shape := ⟨1, ![5000]⟩
abbrev S5000x1 : Shape := ⟨2, ![5000, 1]⟩

abbrev nBuf : Space → Nat
  | .hbm => 88
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .bf16⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .bf16⟩
  | .hbm, ⟨60, _⟩ => ⟨S3300000x16, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x10, .bf16⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x10, .bf16⟩
  | .hbm, ⟨79, _⟩ => ⟨S3300000x10, .f32⟩
  | .hbm, ⟨80, _⟩ => ⟨S3300000x10, .f32⟩
  | .hbm, ⟨81, _⟩ => ⟨S3300000x10, .f32⟩
  | .hbm, ⟨82, _⟩ => ⟨S_, .f32⟩
  | .hbm, ⟨83, _⟩ => ⟨S100000x10, .f32⟩
  | .hbm, ⟨84, _⟩ => ⟨S3300000x1, .i32⟩
  | .hbm, ⟨85, _⟩ => ⟨S100000x10, .f32⟩
  | .hbm, ⟨86, _⟩ => ⟨S1x10, .f32⟩
  | .hbm, ⟨87, _⟩ => ⟨S100000x10, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .bf16⟩
  | .local _ .vmem, ⟨4, _⟩ => ⟨S5000x16, .bf16⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x10, .f32⟩
  | .local _ .vmem, ⟨9, _⟩ => ⟨S5000x10, .bf16⟩
  | .local _ .vmem, ⟨10, _⟩ => ⟨S5000x10, .bf16⟩
  | .local _ .vmem, ⟨11, _⟩ => ⟨S5000x10, .f32⟩
  | .local _ .vmem, ⟨12, _⟩ => ⟨S5000x10, .f32⟩
  | .local _ .vmem, ⟨13, _⟩ => ⟨S1x10, .f32⟩
  | .local _ .vmem, ⟨14, _⟩ => ⟨S5000x10, .f32⟩
  | .local _ .vmem, ⟨15, _⟩ => ⟨S5000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  packedbf16_S5000x16_S5000x16_0_0 : (Rect.unit (s := S5000x16) ![0, 0] S5000x16.size inb_S5000x16_S5000x16_0_0).PackedRows (EltTy.packing .bf16)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x10_S16x10_0_0 : ∀ a, (![0, 0] : Fin 2 → Nat) a + S16x10.size a ≤ S16x10.size a
  h_S16x10 : 0 < S16x10.numel
  inb_S5000x10_S5000x10_0_0 : ∀ a, (![0, 0] : Fin 2 → Nat) a + S5000x10.size a ≤ S5000x10.size a
  h_S5000x10 : 0 < S5000x10.numel
  packedbf16_S5000x10_S5000x10_0_0 : (Rect.unit (s := S5000x10) ![0, 0] S5000x10.size inb_S5000x10_S5000x10_0_0).PackedRows (EltTy.packing .bf16)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x10_S5000x10_1_0_0_1_n_n_wf : DotDims.WF S5000x16 S16x10 S5000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .bf16 = 32 ∨ (Rect.block (s := S100000x16) S5000x16.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x10.size a ≤ S16x10.size a
  hwx1_2 : ∀ i : grid1.Coords, EltTy.bits .f32 = 32 ∨ (Rect.block (s := S16x10) S16x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S100000x10.size a
  hwx1_3 : ∀ i : grid1.Coords, EltTy.bits .bf16 = 32 ∨ (Rect.block (s := S100000x10) S5000x10.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S100000x10.size a
  hwx2_0 : ∀ i : grid2.Coords, EltTy.bits .f32 = 32 ∨ (Rect.block (s := S100000x10) S5000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 139
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x16, .f32⟩
  | 4 => ⟨S16, .f32⟩
  | 5 => ⟨S16x10, .f32⟩
  | 6 => ⟨S10, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x16, .f32⟩
  | 50 => ⟨S3300000x1, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x16, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S3300000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S3300000, .f32⟩
  | 104 => ⟨S100000x10, .f32⟩
  | 105 => ⟨S3300000x1, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x10, .f32⟩
  | 115 => ⟨S3300000x10, .f32⟩
  | 116 => ⟨S3300000x10, .f32⟩
  | 117 => ⟨S_, .f32⟩
  | 118 => ⟨S100000x10, .f32⟩
  | 119 => ⟨S3300000x1, .i32⟩
  | 120 => ⟨S100000x10, .f32⟩
  | 121 => ⟨S1x10, .f32⟩
  | 122 => ⟨S100000x10, .f32⟩
  | 123 => ⟨S100000x10, .f32⟩
  | 124 => ⟨S_, .f32⟩
  | 125 => ⟨S100000, .f32⟩
  | 126 => ⟨S_, .f32⟩
  | 127 => ⟨S100000, .f32⟩
  | _ => ⟨S100000x512, .f32⟩

abbrev hbmTy0_1 (i : Nat) : BufTy := match i % 128 with
  | 0 => ⟨S100000, .f32⟩
  | 1 => ⟨S100000x1, .f32⟩
  | 2 => ⟨S100000x10, .f32⟩
  | 3 => ⟨S100000x10, .f32⟩
  | 4 => ⟨S100000x10, .f32⟩
  | 5 => ⟨S_, .f32⟩
  | 6 => ⟨S100000, .f32⟩
  | 7 => ⟨S100000x1, .f32⟩
  | 8 => ⟨S100000x1, .f32⟩
  | 9 => ⟨S100000x10, .f32⟩
  | 10 => ⟨S100000x10, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run with its RESULT named. The generated frame proof runs @main as eight segments — host
  stretches and three tiled regions — and keeps, at every segment boundary, the contents of every buffer as a fold
  from the launch memory (`W0` … `W8`); its own conclusion only reads the argument arrays off the last fold.
  Here the same run is concluded with one more buffer read off `W8`: the result array `main_v64`. So after every
  weakly fair execution the result is `W8 m ρ c main_v64`, the value the later modules compute.
-/
import proofs.«165762_j11416023073012_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, with the result array at the
    last boundary's fold `W8` and the argument arrays as launched: the segments' run, the final thread state read against
    the final memory at every unscoped buffer. -/
theorem run_value : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.HostFns.lean ====
/-
  The graph side of the network, which both programs compute on the host by the same operations: from the edge list
  (a [2, E] array of source and destination nodes) and the edge weights, with one self loop of weight 1 appended per
  node, the symmetric normalization norm(e) = d(src e)^(-1/2) · w(e) · d(dst e)^(-1/2), d the weighted in-degree
  (zero degrees mapped to 0), and the aggregation of a node-feature matrix h over the edges,
  agg[v, :] = Σ_{e : dst e = v} norm(e) · h[src e, :], as a gather of rows followed by a scatter-add. The functions
  are spelt operation by operation as the programs print them, so that each program's host stretch is one of them
  applied to that program's values.
-/
import proofs.«165762_j11416023073012_2_alg».proof.Proof.Gen.ReferenceIdeal

noncomputable section

namespace Cert.ReferenceIdeal.HostFns

open Cert.ReferenceIdeal Cert.ReferenceIdeal.Gen Idealize.ShloMosaic

variable {F : FTy → Type} [FloatOps F]

/-- The node indices 0 … N−1: the self loops' endpoints. -/
def loopIx : IVec S100000 32 := iotaInDim S100000 32 0

/-- The source node of every edge, the self loops appended. -/
def srcIx (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination node of every edge, the self loops appended. -/
def dstIx (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The weight of every edge, 1 for the self loops. -/
def wts (w : FVec F S3200000 .f32) : FVec F S3300000 .f32 :=
  concatenate S3300000 0 [⟨S3200000, w⟩, ⟨S100000, (broadcastInDim S100000 ![] bcast_S_S100000 (constant S_ .f32 0x3F800000#32))⟩] concatenates_S3200000_S100000_S3300000_d0

/-- The weighted in-degree of every node. -/
def deg (e : IVec S2x3200000 32) (w : FVec F S3200000 .f32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstIx e)) (wts w)

/-- d^(-1/2), with 0 where the degree is not positive. -/
def dinv (e : IVec S2x3200000 32) (w : FVec F S3200000 .f32) : FVec F S100000 .f32 :=
  select (cmpf .ogt (deg e w) (broadcastInDim S100000 ![] bcast_S_S100000 (constant S_ .f32 0x00000000#32))) (Host.rsqrt (deg e w)) (broadcastInDim S100000 ![] bcast_S_S100000 (id (constant S_ .f32 0x00000000#32)))

/-- A column of row indices for a gather, a negative index counted from the end. -/
def wrapIx (ix : IVec S3300000 32) : IVec S3300000x1 32 :=
  broadcastInDim S3300000x1 ![0] bcast_S3300000_S3300000x1_0 (select (cmpi .slt ix (broadcastInDim S3300000 ![] bcast_S_S3300000 (constantI S_ 32 0#32))) (addi ix (broadcastInDim S3300000 ![] bcast_S_S3300000 (constantI S_ 32 100000#32))) ix)

/-- The symmetric normalization of every edge. -/
def norm (e : IVec S2x3200000 32) (w : FVec F S3200000 .f32) : FVec F S3300000 .f32 :=
  mulf (mulf (Host.gather gather_S100000_S3300000x1_S3300000_n_0_n_n_0_1_1 (dinv e w) (wrapIx (srcIx e))) (wts w)) (Host.gather gather_S100000_S3300000x1_S3300000_n_0_n_n_0_1_1 (dinv e w) (wrapIx (dstIx e)))

/-- The aggregation of a 16-column feature matrix over the edges, each source row scaled by the edge's normalization and
    added into the destination's row. -/
def aggregate16 (src dst : IVec S3300000 32) (nrm : FVec F S3300000 .f32) (h : FVec F S100000x16 .f32) : FVec F S100000x16 .f32 :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (broadcastInDim S3300000x16 ![0, 1] bcast_S3300000x1_S3300000x16_0_1 (broadcastInDim S3300000x1 ![0] bcast_S3300000_S3300000x1_0 nrm)) (Host.gather gather_S100000x16_S3300000x1_S3300000x16_1_0_n_n_0_1_116 h (wrapIx src)))

/-- The same over a 10-column feature matrix. -/
def aggregate10 (src dst : IVec S3300000 32) (nrm : FVec F S3300000 .f32) (h : FVec F S100000x10 .f32) : FVec F S100000x10 .f32 :=
  Host.scatterAdd scatter_S100000x10_S3300000x1_S3300000x10_1_0_0_1 (broadcastInDim S100000x10 ![] bcast_S_S100000x10 (constant S_ .f32 0x00000000#32)) (broadcastInDim S3300000x1 ![0] bcast_S3300000_S3300000x1_0 dst) (mulf (broadcastInDim S3300000x10 ![0, 1] bcast_S3300000x1_S3300000x10_0_1 (broadcastInDim S3300000x1 ![0] bcast_S3300000_S3300000x1_0 nrm)) (Host.gather gather_S100000x10_S3300000x1_S3300000x10_1_0_n_n_0_1_110 h (wrapIx src)))

end Cert.ReferenceIdeal.HostFns

end
-- ==== Proof.LibConcatCongr.lean ====
/-
  A congruence for a two-piece `concatenate`: its operands sit inside a list of shape-indexed pairs, which a
  simplification pass does not enter on its own. With this lemma registered the pass rewrites inside the operands, so a
  chain of host operations read by `simp` is read through its concatenations too.
-/
import Idealize.ShloMosaic.PureOps

noncomputable section

namespace Idealize.ShloMosaic

/-- Rewriting the two operands of a two-piece concatenation along an axis: equal pieces give equal concatenations
    (the shape fact does not mention the pieces). Registered as a congruence so that `simp` enters the pieces. -/
@[congr] theorem concatenate_pair_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Idealize.ShloMosaic

end
-- ==== Proof.KernelHost.lean ====
/-
  The idealized kernel's host stretches, read. The generated frame proof keeps the contents of every buffer at each
  boundary of @main as a fold of the host operations from the launch memory, a tiled region replacing its arrays by
  what its write-backs leave. Here each buffer a region reads, and each buffer a later stretch reads again, is
  computed from that fold: the edge endpoints, the weights' normalization and the two aggregations are the host
  functions of the graph side applied to the launch contents and to the regions' results; the biases reach their
  regions reshaped to one row; the arguments are as launched.
-/
import proofs.«165762_j11416023073012_2_alg».proof.Proof.Gen.KernelIdeal.Frame
import proofs.«165762_j11416023073012_2_alg».proof.Proof.HostFns
import proofs.«165762_j11416023073012_2_alg».proof.Proof.LibConcatCongr
import Idealize.ShloMosaic.Lib.StableHlo.Run
import Idealize.ShloMosaic.PureOps.Ideal

set_option maxRecDepth 65536

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.HostFns

/-- Reads a buffer after a stretch of host operations: each operation's result at its own buffer is its function of its
    operands, at any other buffer what was there. -/
macro "after_read" : tactic =>
  `(tactic| ((try simp only [after_cons, after_nil]); after_results_simp))

variable (m : (ℓ : Loc nD τ sig) → Buf (Elt Ideal) ℓ) (ρ : Dev nD → PrngReg) (c : Dev nD)

/-! ## Before the first region: the edge endpoints, the normalization, the arguments

The first stretch computes the endpoints, the weights and the degree's two readings (is it positive; its inverse
square root); the outlined `where` selects between them; the last stretch gathers the selected values at both
endpoints and multiplies. Each stretch is a function of the buffer contents it starts from, whatever they are. -/

theorem W1_src : W1 m ρ c (Proc.devRef .tc main_v3) = srcIx (m ((c : Thread nD τ).loc main_arg1)) := by
  show StableHlo.after hostOps0 (W0 m ρ c) (Proc.devRef .tc main_v3) = _
  after_read
  rfl
theorem W1_dst : W1 m ρ c (Proc.devRef .tc main_v6) = dstIx (m ((c : Thread nD τ).loc main_arg1)) := by
  show StableHlo.after hostOps0 (W0 m ρ c) (Proc.devRef .tc main_v6) = _
  after_read
  rfl
theorem W1_wts : W1 m ρ c (Proc.devRef .tc main_v8) = wts (F := Ideal) (m ((c : Thread nD τ).loc main_arg2)) := by
  show StableHlo.after hostOps0 (W0 m ρ c) (Proc.devRef .tc main_v8) = _
  after_read
  rfl
theorem W1_pos : W1 m ρ c (Proc.devRef .tc main_v13)
    = cmpf .ogt (deg (F := Ideal) (m ((c : Thread nD τ).loc main_arg1)) (m ((c : Thread nD τ).loc main_arg2)))
        (broadcastInDim Cert.ReferenceIdeal.S100000 ![] Cert.ReferenceIdeal.Gen.bcast_S_S100000 (constant (F := Ideal) Cert.ReferenceIdeal.S_ .f32 0x00000000#32)) := by
  show StableHlo.after hostOps0 (W0 m ρ c) (Proc.devRef .tc main_v13) = _
  after_read
  rfl
theorem W1_rsqrt : W1 m ρ c (Proc.devRef .tc main_v14)
    = Host.rsqrt (deg (F := Ideal) (m ((c : Thread nD τ).loc main_arg1)) (m ((c : Thread nD τ).loc main_arg2))) := by
  show StableHlo.after hostOps0 (W0 m ρ c) (Proc.devRef .tc main_v14) = _
  after_read
  rfl
theorem W1_zero : W1 m ρ c (Proc.devRef .tc main_cst_2) = constant (F := Ideal) Cert.ReferenceIdeal.S_ .f32 0x00000000#32 := by
  show StableHlo.after hostOps0 (W0 m ρ c) (Proc.devRef .tc main_cst_2) = _
  after_read

/-- The outlined `where` at any valuation: the selection between the buffers it is called with. -/
theorem where_read (W : Valuation τ sig (Elt Ideal)) :
    StableHlo.after hostOps0_1 W (Proc.devRef .tc main_v15)
      = select (W (Proc.devRef .tc main_v13)) (W (Proc.devRef .tc main_v14))
          (broadcastInDim Cert.ReferenceIdeal.S100000 ![] Cert.ReferenceIdeal.Gen.bcast_S_S100000 (id (W (Proc.devRef .tc main_cst_2)))) := by
  after_read
  rfl
theorem where_src (W : Valuation τ sig (Elt Ideal)) :
    StableHlo.after hostOps0_1 W (Proc.devRef .tc main_v3) = W (Proc.devRef .tc main_v3) := by
  after_read
theorem where_dst (W : Valuation τ sig (Elt Ideal)) :
    StableHlo.after hostOps0_1 W (Proc.devRef .tc main_v6) = W (Proc.devRef .tc main_v6) := by
  after_read
theorem where_wts (W : Valuation τ sig (Elt Ideal)) :
    StableHlo.after hostOps0_1 W (Proc.devRef .tc main_v8) = W (Proc.devRef .tc main_v8) := by
  after_read

theorem W2_dinv : W2 m ρ c (Proc.devRef .tc main_v15)
    = dinv (F := Ideal) (m ((c : Thread nD τ).loc main_arg1)) (m ((c : Thread nD τ).loc main_arg2)) := by
  show StableHlo.after hostOps0_1 (W1 m ρ c) (Proc.devRef .tc main_v15) = _
  rw [where_read, W1_pos, W1_rsqrt, W1_zero]
  rfl
theorem W2_src : W2 m ρ c (Proc.devRef .tc main_v3) = srcIx (m ((c : Thread nD τ).loc main_arg1)) :=
  (where_src (W1 m ρ c)).trans (W1_src m ρ c)
theorem W2_dst : W2 m ρ c (Proc.devRef .tc main_v6) = dstIx (m ((c : Thread nD τ).loc main_arg1)) :=
  (where_dst (W1 m ρ c)).trans (W1_dst m ρ c)
theorem W2_wts : W2 m ρ c (Proc.devRef .tc main_v8) = wts (F := Ideal) (m ((c : Thread nD τ).loc main_arg2)) :=
  (where_wts (W1 m ρ c)).trans (W1_wts m ρ c)

/-- The last stretch before the first region at any valuation: the selected values gathered at both endpoints of every
    edge, times the edge's weight. -/
theorem norm_read (W : Valuation τ sig (Elt Ideal)) (d : FVec Ideal Cert.ReferenceIdeal.S100000 .f32) (s t : IVec Cert.ReferenceIdeal.S3300000 32)
    (u : FVec Ideal Cert.ReferenceIdeal.S3300000 .f32) (hd : W (Proc.devRef .tc main_v15) = d) (hs : W (Proc.devRef .tc main_v3) = s)
    (ht : W (Proc.devRef .tc main_v6) = t) (hu : W (Proc.devRef .tc main_v8) = u) :
    StableHlo.after hostOps0_2 W (Proc.devRef .tc main_v31)
      = mulf (mulf (Host.gather Cert.ReferenceIdeal.gather_S100000_S3300000x1_S3300000_n_0_n_n_0_1_1 d (wrapIx s)) u)
          (Host.gather Cert.ReferenceIdeal.gather_S100000_S3300000x1_S3300000_n_0_n_n_0_1_1 d (wrapIx t)) := by
  subst hd hs ht hu
  after_read
  rfl
theorem last_src (W : Valuation τ sig (Elt Ideal)) :
    StableHlo.after hostOps0_2 W (Proc.devRef .tc main_v3) = W (Proc.devRef .tc main_v3) := by
  after_read
theorem last_dst (W : Valuation τ sig (Elt Ideal)) :
    StableHlo.after hostOps0_2 W (Proc.devRef .tc main_v6) = W (Proc.devRef .tc main_v6) := by
  after_read

theorem W3_src : W3 m ρ c (Proc.devRef .tc main_v3) = srcIx (m ((c : Thread nD τ).loc main_arg1)) :=
  (last_src (W2 m ρ c)).trans (W2_src m ρ c)
theorem W3_dst : W3 m ρ c (Proc.devRef .tc main_v6) = dstIx (m ((c : Thread nD τ).loc main_arg1)) :=
  (last_dst (W2 m ρ c)).trans (W2_dst m ρ c)
theorem W3_norm : W3 m ρ c (Proc.devRef .tc main_v31)
    = norm (F := Ideal) (m ((c : Thread nD τ).loc main_arg1)) (m ((c : Thread nD τ).loc main_arg2)) := by
  exact norm_read (W2 m ρ c) _ _ _ _ (W2_dinv m ρ c) (W2_src m ρ c) (W2_dst m ρ c) (W2_wts m ρ c)

/-- An argument no host operation writes is, at the first region's entry, as launched. -/
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_read
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_read
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_read
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_read
theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_read

/-! ## Between the first and the second region -/

/-- The first region leaves every buffer but its own arrays as it found it. -/
theorem W4_src : W4 m ρ c (Proc.devRef .tc main_v3) = srcIx (m ((c : Thread nD τ).loc main_arg1)) :=
  (W4_of_ne m ρ c main_v3 (by decide)).trans (W3_src m ρ c)
theorem W4_dst : W4 m ρ c (Proc.devRef .tc main_v6) = dstIx (m ((c : Thread nD τ).loc main_arg1)) :=
  (W4_of_ne m ρ c main_v6 (by decide)).trans (W3_dst m ρ c)
theorem W4_norm : W4 m ρ c (Proc.devRef .tc main_v31)
    = norm (F := Ideal) (m ((c : Thread nD τ).loc main_arg1)) (m ((c : Thread nD τ).loc main_arg2)) :=
  (W4_of_ne m ρ c main_v31 (by decide)).trans (W3_norm m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)

/-- What the second region reads as its first operand: the first region's result (held in bf16, which at the ideal
    instance is the same extended real), aggregated over the edges. -/
theorem V5_agg : V5 m ρ c main_v46
    = aggregate16 (F := Ideal) (srcIx (m ((c : Thread nD τ).loc main_arg1))) (dstIx (m ((c : Thread nD τ).loc main_arg1)))
        (norm (F := Ideal) (m ((c : Thread nD τ).loc main_arg1)) (m ((c : Thread nD τ).loc main_arg2)))
        (W4 m ρ c (Proc.devRef .tc main_v32)) := by
  show StableHlo.after hostOps1 (W4 m ρ c) (Proc.devRef .tc main_v46) = _
  after_read
  rw [W4_src, W4_dst, W4_norm]
  rfl

/-- Its second operand: the first bias as one row. -/
theorem V5_bias : V5 m ρ c main_v47 = shapeCast S1x16 (m ((c : Thread nD τ).loc main_arg4)) shapeCasts_S16_S1x16 := by
  show StableHlo.after hostOps1 (W4 m ρ c) (Proc.devRef .tc main_v47) = _
  after_read
  rw [W4_arg4]
  rfl

/-- Its third operand: the second weight matrix, as launched. -/
theorem V5_arg5 : V5 m ρ c main_arg5 = m ((c : Thread nD τ).loc main_arg5) := by
  show StableHlo.after hostOps1 (W4 m ρ c) (Proc.devRef .tc main_arg5) = _
  after_read
  exact W4_arg5 m ρ c

theorem W5_src : W5 m ρ c (Proc.devRef .tc main_v3) = srcIx (m ((c : Thread nD τ).loc main_arg1)) := by
  show StableHlo.after hostOps1 (W4 m ρ c) (Proc.devRef .tc main_v3) = _
  after_read
  exact W4_src m ρ c
theorem W5_dst : W5 m ρ c (Proc.devRef .tc main_v6) = dstIx (m ((c : Thread nD τ).loc main_arg1)) := by
  show StableHlo.after hostOps1 (W4 m ρ c) (Proc.devRef .tc main_v6) = _
  after_read
  exact W4_dst m ρ c
theorem W5_norm : W5 m ρ c (Proc.devRef .tc main_v31)
    = norm (F := Ideal) (m ((c : Thread nD τ).loc main_arg1)) (m ((c : Thread nD τ).loc main_arg2)) := by
  show StableHlo.after hostOps1 (W4 m ρ c) (Proc.devRef .tc main_v31) = _
  after_read
  exact W4_norm m ρ c
theorem W5_arg6 : W5 m ρ c (Proc.devRef .tc main_arg6) = m ((c : Thread nD τ).loc main_arg6) := by
  show StableHlo.after hostOps1 (W4 m ρ c) (Proc.devRef .tc main_arg6) = _
  after_read
  exact W4_arg6 m ρ c

/-! ## Between the second and the third region -/

theorem W6_src : W6 m ρ c (Proc.devRef .tc main_v3) = srcIx (m ((c : Thread nD τ).loc main_arg1)) :=
  (W6_of_ne m ρ c main_v3 (by decide)).trans (W5_src m ρ c)
theorem W6_dst : W6 m ρ c (Proc.devRef .tc main_v6) = dstIx (m ((c : Thread nD τ).loc main_arg1)) :=
  (W6_of_ne m ρ c main_v6 (by decide)).trans (W5_dst m ρ c)
theorem W6_norm : W6 m ρ c (Proc.devRef .tc main_v31)
    = norm (F := Ideal) (m ((c : Thread nD τ).loc main_arg1)) (m ((c : Thread nD τ).loc main_arg2)) :=
  (W6_of_ne m ρ c main_v31 (by decide)).trans (W5_norm m ρ c)
theorem W6_arg6 : W6 m ρ c (Proc.devRef .tc main_arg6) = m ((c : Thread nD τ).loc main_arg6) :=
  (W6_of_ne m ρ c main_arg6 (by decide)).trans (W5_arg6 m ρ c)

/-- What the third region reads as its first operand: the second region's result aggregated over the edges. -/
theorem V7_agg : V7 m ρ c main_v62
    = aggregate10 (F := Ideal) (srcIx (m ((c : Thread nD τ).loc main_arg1))) (dstIx (m ((c : Thread nD τ).loc main_arg1)))
        (norm (F := Ideal) (m ((c : Thread nD τ).loc main_arg1)) (m ((c : Thread nD τ).loc main_arg2)))
        (W6 m ρ c (Proc.devRef .tc main_v48)) := by
  show StableHlo.after hostOps2 (W6 m ρ c) (Proc.devRef .tc main_v62) = _
  after_read
  rw [W6_src, W6_dst, W6_norm]
  rfl

/-- Its second operand: the second bias as one row. -/
theorem V7_bias : V7 m ρ c main_v63 = shapeCast S1x10 (m ((c : Thread nD τ).loc main_arg6)) shapeCasts_S10_S1x10 := by
  show StableHlo.after hostOps2 (W6 m ρ c) (Proc.devRef .tc main_v63) = _
  after_read
  rw [W6_arg6]
  rfl

end Cert.KernelIdeal.HostValue

end
-- ==== Proof.Spec.lean ====
/-
  What the two programs compute, stated once over plain index types — the functions both sides are proved equal to.
  A graph-convolution layer multiplies the node features by a weight matrix (`matProd`), aggregates over the edges (on
  the host, by the same gather and scatter-add in both programs, so it is not restated here), adds a bias and applies
  relu (`biasRelu`); the network ends in a row-wise log-softmax of the biased aggregate (`biasLogSoftmax`):
  per row, with z the row plus the bias and μ its maximum, (z − μ) − log Σ exp(z − μ). All on the extended reals,
  where a sum of products does not depend on the order or grouping of its terms.
-/
import Idealize.ShloMosaic.PureOps.Ideal
import Idealize.ShloMosaic.Lib.ValueIdx

noncomputable section

open scoped BigOperators

namespace Cert.Spec

open Idealize.ShloMosaic Idealize.ShloMosaic.ValueIdx

/-- The matrix product of an [M, K] and a [K, N] array: entry (r, q) is Σₖ x[r, k] · w[k, q]. -/
def matProd (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- relu of an [M, K] array plus a bias held as a [1, K] row: entry (r, k) is max (a[r, k] + b[0, k]) 0, the zero
    kept as the float word both programs print. -/
def biasRelu (M K : Nat) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (⟨(i 1).val, idx2_lt1 i⟩ : Fin K))) (Ideal.ofBits .f32 0x00000000#32)

/-- The maximum of N extended reals, folded from the float word of −∞. -/
def rowMax (N : Nat) (z : Fin N → EReal) : EReal :=
  (Finset.univ : Finset (Fin N)).fold max (Ideal.ofBits .f32 0xFF800000#32) z

/-- The log-softmax of one row z at position q: (z q − μ) − log Σₖ exp (z k − μ), μ the row's maximum. -/
def logSoftmaxAt (N : Nat) (z : Fin N → EReal) (q : Fin N) : EReal :=
  (z q - rowMax N z) - Ideal.log (∑ k : Fin N, Ideal.exp (z k - rowMax N z))

/-- Row r of an [M, N] array plus a bias held as a [1, N] row. -/
def biasRow (M N : Nat) (a : (⟨2, ![M, N]⟩ : Shape).Idx → EReal) (b : (⟨2, ![1, N]⟩ : Shape).Idx → EReal) (r : Fin M) :
    Fin N → EReal :=
  fun k => a (ix2 r k) + b (ix2 (0 : Fin 1) k)

/-- The row-wise log-softmax of an [M, N] array plus a bias held as a [1, N] row. -/
def biasLogSoftmax (M N : Nat) (a : (⟨2, ![M, N]⟩ : Shape).Idx → EReal) (b : (⟨2, ![1, N]⟩ : Shape).Idx → EReal) :
    (⟨2, ![M, N]⟩ : Shape).Idx → EReal :=
  fun i => logSoftmaxAt N (biasRow M N a b (⟨(i 0).val, idx2_lt0 i⟩ : Fin M)) (⟨(i 1).val, idx2_lt1 i⟩ : Fin N)

end Cert.Spec

end
-- ==== Proof.NetOut.lean ====
/-
  The whole network as ONE function of the seven arguments, the function both programs are proved to compute: two
  graph-convolution layers — features times weights, aggregated over the normalized edges, plus a bias — with a relu
  between them and a row-wise log-softmax at the end. The dense parts are the plain-index specifications, the graph
  part the host functions both programs share.
-/
import proofs.«165762_j11416023073012_2_alg».proof.Proof.HostFns
import proofs.«165762_j11416023073012_2_alg».proof.Proof.Spec

noncomputable section

namespace Cert.ReferenceIdeal.HostFns

open Cert.ReferenceIdeal Cert.ReferenceIdeal.Gen Idealize.ShloMosaic

/-- log_softmax (Â · relu (Â · (x · W1) + b1) · W2 + b2), Â the normalized adjacency with self loops, every array an
    array of extended reals. -/
def netOut (x : FVec Ideal S100000x512 .f32) (e : IVec S2x3200000 32) (w : FVec Ideal S3200000 .f32)
    (w1 : FVec Ideal S512x16 .f32) (b1 : FVec Ideal S16 .f32) (w2 : FVec Ideal S16x10 .f32) (b2 : FVec Ideal S10 .f32) :
    FVec Ideal S100000x10 .f32 :=
  Cert.Spec.biasLogSoftmax 100000 10
    (aggregate10 (F := Ideal) (srcIx e) (dstIx e) (norm (F := Ideal) e w)
      (Cert.Spec.matProd 100000 16 10
        (Cert.Spec.biasRelu 100000 16
          (aggregate16 (F := Ideal) (srcIx e) (dstIx e) (norm (F := Ideal) e w) (Cert.Spec.matProd 100000 512 16 x w1))
          (broadcastInDim S1x16 ![1] bcast_S16_S1x16_1 b1))
        w2))
    (broadcastInDim S1x10 ![1] bcast_S10_S1x10_1 b2)

end Cert.ReferenceIdeal.HostFns

end
-- ==== Proof.Region0.lean ====
/-
  The first matrix-product region read as a whole array: each grid point multiplies a tile of 5000 rows of x by the
  whole weight matrix, and the twenty tiles fill the [100000, 16] result, which therefore holds the product x · w,
  entry (r, q) being the sum over k of x[r, k] · w[k, q].
-/
import proofs.«165762_j11416023073012_2_alg».proof.Proof.Gen.KernelIdeal.Frame
import proofs.«165762_j11416023073012_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The first product at an index -/

/-- The left operand's row coordinate is the output's. -/
theorem mm0_lhs_row (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl

/-- The right operand's column coordinate is the output's. -/
theorem mm0_rhs_col (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- A row tile's product at (p, q): the sum over k of x[p, k] · w[k, q]. On the extended reals the narrowing of the
    operands and of the result to the shorter float format changes nothing, and the accumulator starts at zero. -/
theorem mm0_apply (v0 : Vec Ideal S5000x512 .f32) (v2 : Vec Ideal S512x16 .f32) (p : Fin 5000) (q : Fin 16) :
    Gen.k0_pay1 v0 v2 (ix2 p q) = ∑ k : Fin 512, v0 (ix2 p k) * v2 (ix2 k q) := by
  unfold Gen.k0_pay1
  simp only [truncf_apply]
  refine (Ideal.matmul_constant_zero_apply dot_S5000x512_S512x16_S5000x16_1_0_0_1_n_n none _ _ _).trans ?_
  rw [← Equiv.sum_comp (contrEquiv1 dot_S5000x512_S512x16_S5000x16_1_0_0_1_n_n 512 rfl rfl).symm]
  refine Finset.sum_congr rfl fun k _ => ?_
  have hk := contrEquiv1_symm_val dot_S5000x512_S512x16_S5000x16_1_0_0_1_n_n 512 rfl rfl k
  have el : dot_S5000x512_S512x16_S5000x16_1_0_0_1_n_n.lhsIdx (ix2 p q) ((contrEquiv1 dot_S5000x512_S512x16_S5000x16_1_0_0_1_n_n 512 rfl rfl).symm k) = ix2 p k := funext fun a => Fin.ext (by
    match a with
    | ⟨0, _⟩ => exact mm0_lhs_row _ _
    | ⟨1, _⟩ => exact (dot_S5000x512_S512x16_S5000x16_1_0_0_1_n_n.lhsIdx_val_of_single rfl _ _).trans hk)
  have er : dot_S5000x512_S512x16_S5000x16_1_0_0_1_n_n.rhsIdx (ix2 p q) ((contrEquiv1 dot_S5000x512_S512x16_S5000x16_1_0_0_1_n_n 512 rfl rfl).symm k) = ix2 k q := funext fun a => Fin.ext (by
    match a with
    | ⟨0, _⟩ => exact (dot_S5000x512_S512x16_S5000x16_1_0_0_1_n_n.rhsIdx_val_of_single rfl _ _).trans hk
    | ⟨1, _⟩ => exact mm0_rhs_col _ _)
  rw [truncf_apply, truncf_apply, el, er]

/-- One element of a row tile's product is the element of the whole product it sits at, when the tile's rows are
    the whole array's rows there (`h0`) and the weights are the whole weight matrix (`h1`). -/
theorem mm0_point (x0 : Vec Ideal S5000x512 .f32) (x1 : Vec Ideal S512x16 .f32)
    (A : (⟨2, ![100000, 512]⟩ : Shape).Idx → EReal) (W : (⟨2, ![512, 16]⟩ : Shape).Idx → EReal)
    (j : S5000x16.Idx) (i : S100000x16.Idx)
    (h0 : ∀ k : Fin 512, x0 (ix2 (⟨(j 0).val, idx2_lt0 j⟩ : Fin 5000) k) = A (ix2 (⟨(i 0).val, idx2_lt0 i⟩ : Fin 100000) k))
    (h1 : ∀ k : Fin 512, x1 (ix2 k (⟨(j 1).val, idx2_lt1 j⟩ : Fin 16)) = W (ix2 k (⟨(i 1).val, idx2_lt1 i⟩ : Fin 16))) :
    Gen.k0_pay1 x0 x1 j = Cert.Spec.matProd 100000 512 16 A W i := by
  obtain ⟨p, q, rfl⟩ : ∃ (p : Fin 5000) (q : Fin 16), j = ix2 p q := ⟨j 0, j 1, eq_ix2 j⟩
  rw [mm0_apply]
  exact Finset.sum_congr rfl fun k _ => by rw [← h0 k, ← h1 k]

/-! ## From the row tiles to the array -/

theorem zero_off0 : (![0, 0] : Fin 2 → Nat) = fun _ => 0 := funext fun a => by fin_cases a <;> rfl

/-- The index maps over the grid: the input rows move with the output rows, the weights stay, and point t works on
    row tile t. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is row tile t of the whole product: the tile's rows of x are rows 5000·t + p of the
    array, the weights are read whole, and the written block sits at the same rows. -/
theorem flushed0_eq (c : Dev nD) (t : Fin cfg0.N) :
    (dat0 (F := Ideal) V c).flushed 2 t
      = ((cfg0.win 2).blk t).view.read (Elt Ideal) (Cert.Spec.matProd 100000 512 16 (V c main_arg0) (V c main_arg3)) := by
  show (cfg0.win 2).cut (grid0.coords t) ((dat0 (F := Ideal) V c).after 2 t) = _
  rw [after0_2]
  unfold out0_2
  rw [View.canon_unit_zero zero_off0]
  simp only [View.ld_unit_zero (S := S5000x512) zero_off0, View.ld_unit_zero (S := S512x16) zero_off0]
  obtain ⟨e0, e1, e2, e3, e4, e5⟩ := tiles0 t
  funext j
  show Gen.k0_pay1 (iblk0 V c 0 t) (iblk0 V c 1 t) j
    = Cert.Spec.matProd 100000 512 16 (V c main_arg0) (V c main_arg3) (((cfg0.win 2).blk t).view.emb j)
  refine mm0_point _ _ _ _ j _ (fun k => ?_) (fun k => ?_)
  · show V c main_arg0 (((cfg0.win 0).blk t).view.emb (ix2 (⟨(j 0).val, idx2_lt0 j⟩ : Fin 5000) k)) = V c main_arg0 _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · show V c main_arg3 (((cfg0.win 1).blk t).view.emb (ix2 k (⟨(j 1).val, idx2_lt1 j⟩ : Fin 16))) = V c main_arg3 _
    refine congrArg _ (funext fun a => Fin.ext ?_)
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega

/-- An index of the array is in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The twenty row tiles fill the array: row r is in tile r / 5000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨e0, e1, e2, e3, e4, e5⟩ := tiles0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The first product region leaves the whole product x · w in its output array. -/
theorem final0 (c : Dev nD) :
    (dat0 (F := Ideal) V c).arrAt 2 cfg0.N = Cert.Spec.matProd 100000 512 16 (V c main_arg0) (V c main_arg3) :=
  (dat0 (F := Ideal) V c).arrAt_eq_of_cover 2 (Cert.Spec.matProd 100000 512 16 (V c main_arg0) (V c main_arg3))
    (fun t _ => flushed0_eq V c t) cover0

end Cert.KernelIdeal.RegionValue

end
-- ==== Proof.Region1.lean ====
/-
  The second matrix-product region read as a whole array: each grid point adds the bias row to a tile of 5000 rows
  of the aggregate, applies relu, and multiplies by the whole weight matrix; the twenty tiles fill the [100000, 10]
  result, which therefore holds relu(agg + b) · w, entry (r, q) being the sum over k of
  max (agg[r, k] + b[0, k]) 0 · w[k, q].
-/
import proofs.«165762_j11416023073012_2_alg».proof.Proof.Gen.KernelIdeal.Frame
import proofs.«165762_j11416023073012_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The second product at an index -/

/-- The left operand's row coordinate is the output's. -/
theorem mm1_lhs_row (i : S5000x10.Idx) (q : dot_S5000x16_S16x10_S5000x10_1_0_0_1_n_n.contr.Idx) :
    (dot_S5000x16_S16x10_S5000x10_1_0_0_1_n_n.lhsIdx i q 0).val = (i 0).val := by
  unfold DotDims.lhsIdx
  rw [dif_neg (show ¬(0 : Fin S5000x16.rank) ∈ dot_S5000x16_S16x10_S5000x10_1_0_0_1_n_n.lhsBatch by decide), dif_pos (show (0 : Fin S5000x16.rank) ∈ dot_S5000x16_S16x10_S5000x10_1_0_0_1_n_n.lhsNonContracting by decide)]
  rfl

/-- The right operand's column coordinate is the output's. -/
theorem mm1_rhs_col (i : S5000x10.Idx) (q : dot_S5000x16_S16x10_S5000x10_1_0_0_1_n_n.contr.Idx) :
    (dot_S5000x16_S16x10_S5000x10_1_0_0_1_n_n.rhsIdx i q 1).val = (i 1).val := by
  unfold DotDims.rhsIdx
  rw [dif_neg (show ¬(1 : Fin S16x10.rank) ∈ dot_S5000x16_S16x10_S5000x10_1_0_0_1_n_n.rhsBatch by decide), dif_pos (show (1 : Fin S16x10.rank) ∈ dot_S5000x16_S16x10_S5000x10_1_0_0_1_n_n.rhsNonContracting by decide)]
  rfl

/-- A row tile's fused product at (p, q): the sum over k of max (a[p, k] + b[0, k]) 0 · w[k, q]. The bias row is
    broadcast over the tile's rows, the zero of the relu is the float word 0, the narrowing to the shorter float
    format changes nothing on the extended reals, and the accumulator starts at zero. -/
theorem mm1_apply (v0 : Vec Ideal S5000x16 .f32) (v2 : Vec Ideal S1x16 .f32) (v9 : Vec Ideal S16x10 .f32) (p : Fin 5000) (q : Fin 10) :
    Gen.k1_pay1 v0 v2 v9 (ix2 p q)
      = ∑ k : Fin 16, max (v0 (ix2 p k) + v2 (ix2 (0 : Fin 1) k)) (Ideal.ofBits .f32 0x00000000#32) * v9 (ix2 k q) := by
  unfold Gen.k1_pay1
  simp only [shapeCast_self, truncf_apply]
  refine (Ideal.matmul_constant_zero_apply dot_S5000x16_S16x10_S5000x10_1_0_0_1_n_n none _ _ _).trans ?_
  rw [← Equiv.sum_comp (contrEquiv1 dot_S5000x16_S16x10_S5000x10_1_0_0_1_n_n 16 rfl rfl).symm]
  refine Finset.sum_congr rfl fun k _ => ?_
  have hk := contrEquiv1_symm_val dot_S5000x16_S16x10_S5000x10_1_0_0_1_n_n 16 rfl rfl k
  have el : dot_S5000x16_S16x10_S5000x10_1_0_0_1_n_n.lhsIdx (ix2 p q) ((contrEquiv1 dot_S5000x16_S16x10_S5000x10_1_0_0_1_n_n 16 rfl rfl).symm k) = ix2 p k := funext fun a => Fin.ext (by
    match a with
    | ⟨0, _⟩ => exact mm1_lhs_row _ _
    | ⟨1, _⟩ => exact (dot_S5000x16_S16x10_S5000x10_1_0_0_1_n_n.lhsIdx_val_of_single rfl _ _).trans hk)
  have er : dot_S5000x16_S16x10_S5000x10_1_0_0_1_n_n.rhsIdx (ix2 p q) ((contrEquiv1 dot_S5000x16_S16x10_S5000x10_1_0_0_1_n_n 16 rfl rfl).symm k) = ix2 k q := funext fun a => Fin.ext (by
    match a with
    | ⟨0, _⟩ => exact (dot_S5000x16_S16x10_S5000x10_1_0_0_1_n_n.rhsIdx_val_of_single rfl _ _).trans hk
    | ⟨1, _⟩ => exact mm1_rhs_col _ _)
  rw [truncf_apply, truncf_apply, el, er]
  show max (v0 (ix2 p k) + broadcastTo S5000x16 v2 broadcasts_S1x16_S5000x16 (ix2 p k)) (Ideal.ofBits .f32 0x00000000#32) * v9 (ix2 k q) = _
  rw [broadcastTo_1b_ab_apply v2 broadcasts_S1x16_S5000x16 p k]

/-- One element of a row tile's fused product is the element of the whole product it sits at, when the tile's rows
    are the whole aggregate's rows there (`h0`) and the bias row and the weights are read whole (`h1`, `h2`). -/
theorem mm1_point (x0 : Vec Ideal S5000x16 .f32) (x1 : Vec Ideal S1x16 .f32) (x2 : Vec Ideal S16x10 .f32)
    (A : (⟨2, ![100000, 16]⟩ : Shape).Idx → EReal) (B : (⟨2, ![1, 16]⟩ : Shape).Idx → EReal) (W : (⟨2, ![16, 10]⟩ : Shape).Idx → EReal)
    (j : S5000x10.Idx) (i : S100000x10.Idx)
    (h0 : ∀ k : Fin 16, x0 (ix2 (⟨(j 0).val, idx2_lt0 j⟩ : Fin 5000) k) = A (ix2 (⟨(i 0).val, idx2_lt0 i⟩ : Fin 100000) k))
    (h1 : ∀ k : Fin 16, x1 (ix2 (0 : Fin 1) k) = B (ix2 (0 : Fin 1) k))
    (h2 : ∀ k : Fin 16, x2 (ix2 k (⟨(j 1).val, idx2_lt1 j⟩ : Fin 10)) = W (ix2 k (⟨(i 1).val, idx2_lt1 i⟩ : Fin 10))) :
    Gen.k1_pay1 x0 x1 x2 j = Cert.Spec.matProd 100000 16 10 (Cert.Spec.biasRelu 100000 16 A B) W i := by
  obtain ⟨p, q, rfl⟩ : ∃ (p : Fin 5000) (q : Fin 10), j = ix2 p q := ⟨j 0, j 1, eq_ix2 j⟩
  rw [mm1_apply]
  unfold Cert.Spec.matProd Cert.Spec.biasRelu
  refine Finset.sum_congr rfl fun k _ => ?_
  have e0 := h0 k
  have e1 := h1 k
  have e2 := h2 k
  show max (x0 (ix2 p k) + x1 (ix2 (0 : Fin 1) k)) _ * x2 (ix2 k q)
    = max (A (ix2 (⟨(i 0).val, idx2_lt0 i⟩ : Fin 100000) k) + B (ix2 (0 : Fin 1) k)) _ * W (ix2 k (⟨(i 1).val, idx2_lt1 i⟩ : Fin 10))
  rw [← e0, ← e1, ← e2]

/-! ## From the row tiles to the array -/

theorem zero_off1 : (![0, 0] : Fin 2 → Nat) = fun _ => 0 := funext fun a => by fin_cases a <;> rfl

/-- The index maps over the grid: the aggregate's rows move with the output rows, the bias row and the weights
    stay, and point t works on row tile t. -/
theorem tiles1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is row tile t of the whole fused product: the tile's rows of the aggregate are rows
    5000·t + p of the array, the bias row and the weights are read whole, and the written block sits at the same
    rows. -/
theorem flushed1_eq (c : Dev nD) (t : Fin cfg1.N) :
    (dat1 (F := Ideal) V c).flushed 3 t
      = ((cfg1.win 3).blk t).view.read (Elt Ideal)
          (Cert.Spec.matProd 100000 16 10 (Cert.Spec.biasRelu 100000 16 (V c main_v46) (V c main_v47)) (V c main_arg5)) := by
  show (cfg1.win 3).cut (grid1.coords t) ((dat1 (F := Ideal) V c).after 3 t) = _
  rw [after1_3]
  unfold out1_3
  rw [View.canon_unit_zero zero_off1]
  simp only [View.ld_unit_zero (S := S5000x16) zero_off1, View.ld_unit_zero (S := S1x16) zero_off1, View.ld_unit_zero (S := S16x10) zero_off1]
  obtain ⟨e0, e1, e2, e3, e4, e5, e6, e7⟩ := tiles1 t
  funext j
  show Gen.k1_pay1 (iblk1 V c 0 t) (iblk1 V c 1 t) (iblk1 V c 2 t) j
    = Cert.Spec.matProd 100000 16 10 (Cert.Spec.biasRelu 100000 16 (V c main_v46) (V c main_v47)) (V c main_arg5) (((cfg1.win 3).blk t).view.emb j)
  refine mm1_point _ _ _ _ _ _ j _ (fun k => ?_) (fun k => ?_) (fun k => ?_)
  · show V c main_v46 (((cfg1.win 0).blk t).view.emb (ix2 (⟨(j 0).val, idx2_lt0 j⟩ : Fin 5000) k)) = V c main_v46 _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 16 + 1 * k.val = k.val; omega
  · show V c main_v47 (((cfg1.win 1).blk t).view.emb (ix2 (0 : Fin 1) k)) = V c main_v47 _
    refine congrArg _ (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  · show V c main_arg5 (((cfg1.win 2).blk t).view.emb (ix2 k (⟨(j 1).val, idx2_lt1 j⟩ : Fin 10))) = V c main_arg5 _
    refine congrArg _ (funext fun a => Fin.ext ?_)
    match a with
    | ⟨0, _⟩ => show win1_2.index t (0 : Fin 2) * 16 + 1 * k.val = k.val; omega
    | ⟨1, _⟩ => show win1_2.index t (1 : Fin 2) * 10 + 1 * (j 1).val = win1_3.index t (1 : Fin 2) * 10 + 1 * (j 1).val; omega

/-- An index of the array is in point t's block iff each coordinate is in the block's range on its axis. -/
theorem mem_blk1 (t : Fin cfg1.N) (i : S100000x10.Idx) :
    i ∈ ((cfg1.win 3).blk t).view.set ↔ ∀ a : Fin 2, win1_3.index t a * S5000x10.size a ≤ (i a).val ∧ (i a).val < win1_3.index t a * S5000x10.size a + S5000x10.size a := by
  show i ∈ ((View.whole main_v48).slice (win1_3.rect t)).set ↔ _
  rw [View.set_slice_whole, Rect.mem_set_unit]
  exact Iff.rfl

/-- The twenty row tiles fill the array: row r is in tile r / 5000. -/
theorem cover1 (i : S100000x10.Idx) : ∃ t : Fin cfg1.N, (cfg1.win 3).flush t = true ∧ i ∈ ((cfg1.win 3).blk t).view.set := by
  have hi0 : (i 0).val < 100000 := (i 0).isLt
  have hi1 : (i 1).val < 10 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨e0, e1, e2, e3, e4, e5, e6, e7⟩ := tiles1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 10 ≤ (i 1).val ∧ (i 1).val < win1_3.index t (1 : Fin 2) * 10 + 10; omega

/-- The second product region leaves relu(agg + b) · w in its output array. -/
theorem final1 (c : Dev nD) :
    (dat1 (F := Ideal) V c).arrAt 3 cfg1.N
      = Cert.Spec.matProd 100000 16 10 (Cert.Spec.biasRelu 100000 16 (V c main_v46) (V c main_v47)) (V c main_arg5) :=
  (dat1 (F := Ideal) V c).arrAt_eq_of_cover 3
    (Cert.Spec.matProd 100000 16 10 (Cert.Spec.biasRelu 100000 16 (V c main_v46) (V c main_v47)) (V c main_arg5))
    (fun t _ => flushed1_eq V c t) cover1

end Cert.KernelIdeal.RegionValue

end
-- ==== Proof.Region2.lean ====
/-
  Region 2 of the kernel, read as a whole array: every row tile of the kernel's last region writes, into its block of the
  output array, the row-wise log-softmax of its block of the aggregate plus the bias row; the tiles cover the array, so the
  output array ends holding `Cert.Spec.biasLogSoftmax` of the two arrays the region reads.
  Per row, with z the row plus the bias and μ its maximum (a fold of max from the float word of −∞), the tile computes
  (z − μ) − log Σ exp (z − μ): the specification's `logSoftmaxAt`, term for term.
-/
import proofs.«165762_j11416023073012_2_alg».proof.Proof.Gen.KernelIdeal.Frame
import proofs.«165762_j11416023073012_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Layout operations of the tile read at an index -/

/-- The source index over row `p` of an [M, N] array with `k` on the reduced (second) axis is (p, k). -/
theorem r2_lift_row {M N : Nat} (h : (⟨2, ![M, N]⟩ : Shape).Reduces [1] ⟨1, ![M]⟩) (p : Fin M) (k : Fin N) :
    h.lift (ix1 p) k = ix2 p k := by
  funext c
  match c with
  | ⟨0, _⟩ => rfl
  | ⟨1, _⟩ => rfl

/-- A row vector [1, N] broadcast to [M, N] reads its column. -/
theorem r2_rowBroadcast_apply {α : Type} {M N : Nat} (x : (⟨2, ![1, N]⟩ : Shape).Idx → α)
    (h : (⟨2, ![1, N]⟩ : Shape).Broadcasts ⟨2, ![M, N]⟩) (p : Fin M) (q : Fin N) :
    broadcastTo ⟨2, ![M, N]⟩ x h (ix2 p q) = x (ix2 (0 : Fin 1) q) := by
  refine broadcastTo_apply x h (ix2 p q) (ix2 (0 : Fin 1) q) (fun a => ?_)
  match a with
  | ⟨0, _⟩ => exact (if_pos rfl).symm
  | ⟨1, _⟩ =>
    show q.val = if N = 1 then 0 else q.val
    split
    · next hN => have := q.isLt; omega
    · rfl

/-- A column [M, 1] broadcast to [M, N] reads its row. -/
theorem r2_colBroadcast_apply {α : Type} {M N : Nat} (y : (⟨2, ![M, 1]⟩ : Shape).Idx → α)
    (h : (⟨2, ![M, 1]⟩ : Shape).Broadcasts ⟨2, ![M, N]⟩) (p : Fin M) (q : Fin N) :
    broadcastTo ⟨2, ![M, N]⟩ y h (ix2 p q) = y (ix2 p (0 : Fin 1)) := by
  refine broadcastTo_apply y h (ix2 p q) (ix2 p (0 : Fin 1)) (fun a => ?_)
  match a with
  | ⟨0, _⟩ =>
    show p.val = if M = 1 then 0 else p.val
    split
    · next hM => have := p.isLt; omega
    · rfl
  | ⟨1, _⟩ => exact (if_pos rfl).symm

/-- A per-row vector [M] viewed as a column [M, 1] reads its row. -/
theorem r2_colCast_apply {α : Type} {M : Nat} (x : (⟨1, ![M]⟩ : Shape).Idx → α)
    (h : (⟨1, ![M]⟩ : Shape).ShapeCasts ⟨2, ![M, 1]⟩) (p : Fin M) :
    shapeCast ⟨2, ![M, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-! ## The row-wise log-softmax of a tile at an index -/

/-- A row maximum taken by a lane reduction from the float word of −∞ is the specification's `rowMax` of that row. -/
theorem r2_rowMax_apply {M N : Nat} (z : FVec Ideal ⟨2, ![M, N]⟩ .f32)
    (hr : (⟨2, ![M, N]⟩ : Shape).Reduces [1] ⟨1, ![M]⟩) (hφ : FKind.Formats .f32)
    (hmax : (0xFF800000#32 : BitVec 32) = FKind.maximumf.neutral .f32 hφ) (p : Fin M) :
    multiReduction .maximumf [1] ⟨1, ![M]⟩ z 0xFF800000#32 hr hφ hmax (ix1 p)
      = Cert.Spec.rowMax N (fun k => z (ix2 p k)) := by
  refine (Ideal.multiReduction_maximumf_single z 0xFF800000#32 hr hφ hmax (ix1 p)).trans ?_
  show (Finset.univ : Finset (Fin N)).fold max (Ideal.ofBits .f32 0xFF800000#32) (fun k => z (hr.lift (ix1 p) k)) = _
  unfold Cert.Spec.rowMax
  congr 1
  funext k
  exact congrArg z (r2_lift_row hr p k)

/-- A row sum taken by a lane reduction is the sum over the row. -/
theorem r2_rowSum_apply {M N : Nat} (e : FVec Ideal ⟨2, ![M, N]⟩ .f32)
    (hr : (⟨2, ![M, N]⟩ : Shape).Reduces [1] ⟨1, ![M]⟩) (hφ : FKind.Formats .f32)
    (hadd : (0x00000000#32 : BitVec 32) = FKind.add.neutral .f32 hφ) (p : Fin M) :
    multiReduction .add [1] ⟨1, ![M]⟩ e 0x00000000#32 hr hφ hadd (ix1 p) = ∑ k : Fin N, e (ix2 p k) := by
  refine (Ideal.multiReduction_add_single e 0x00000000#32 hr hφ hadd (ix1 p)).trans ?_
  show ∑ k : Fin N, e (hr.lift (ix1 p) k) = _
  exact Finset.sum_congr rfl fun k _ => congrArg e (r2_lift_row hr p k)

/-- THE BLOCK'S LOG-SOFTMAX AT (p, q): the chain of a row maximum, its subtraction, the exponentials' row sum, its logarithm
    and the second subtraction is the specification's `logSoftmaxAt` of row `p` at `q`. -/
theorem r2_blockLogSoftmax_apply {M N : Nat} (z : FVec Ideal ⟨2, ![M, N]⟩ .f32)
    (hr : (⟨2, ![M, N]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    subf (subf z (broadcastTo ⟨2, ![M, N]⟩ (shapeCast ⟨2, ![M, 1]⟩ (multiReduction .maximumf [1] ⟨1, ![M]⟩ z 0xFF800000#32 hr hφ hmax) hc) hb))
        (broadcastTo ⟨2, ![M, N]⟩ (log (shapeCast ⟨2, ![M, 1]⟩ (multiReduction .add [1] ⟨1, ![M]⟩
          (exp (subf z (broadcastTo ⟨2, ![M, N]⟩ (shapeCast ⟨2, ![M, 1]⟩ (multiReduction .maximumf [1] ⟨1, ![M]⟩ z 0xFF800000#32 hr hφ hmax) hc) hb)))
          0x00000000#32 hr hφ hadd) hc)) hb) (ix2 p q)
      = Cert.Spec.logSoftmaxAt N (fun k => z (ix2 p k)) q := by
  have hsub : ∀ q' : Fin N, subf z (broadcastTo ⟨2, ![M, N]⟩ (shapeCast ⟨2, ![M, 1]⟩ (multiReduction .maximumf [1] ⟨1, ![M]⟩ z 0xFF800000#32 hr hφ hmax) hc) hb) (ix2 p q')
      = z (ix2 p q') - Cert.Spec.rowMax N (fun k => z (ix2 p k)) := fun q' =>
    congrArg (z (ix2 p q') - ·) (((r2_colBroadcast_apply _ hb p q').trans (r2_colCast_apply _ hc p)).trans (r2_rowMax_apply z hr hφ hmax p))
  have hlog : broadcastTo ⟨2, ![M, N]⟩ (log (shapeCast ⟨2, ![M, 1]⟩ (multiReduction .add [1] ⟨1, ![M]⟩
        (exp (subf z (broadcastTo ⟨2, ![M, N]⟩ (shapeCast ⟨2, ![M, 1]⟩ (multiReduction .maximumf [1] ⟨1, ![M]⟩ z 0xFF800000#32 hr hφ hmax) hc) hb)))
        0x00000000#32 hr hφ hadd) hc)) hb (ix2 p q)
      = Ideal.log (∑ k : Fin N, Ideal.exp (z (ix2 p k) - Cert.Spec.rowMax N (fun k => z (ix2 p k)))) := by
    refine (r2_colBroadcast_apply _ hb p q).trans ?_
    show Ideal.log (shapeCast ⟨2, ![M, 1]⟩ _ hc (ix2 p (0 : Fin 1))) = _
    refine congrArg Ideal.log (((r2_colCast_apply _ hc p).trans (r2_rowSum_apply _ hr hφ hadd p)).trans ?_)
    exact Finset.sum_congr rfl fun k _ => congrArg Ideal.exp (hsub k)
  show subf z _ (ix2 p q) - broadcastTo ⟨2, ![M, N]⟩ _ hb (ix2 p q) = _
  rw [hsub q, hlog]
  rfl

/-! ## The tile's payload at an index -/

/-- The payload of the tile's one store at (p, q): the log-softmax of row `p` of the loaded block plus the bias row, at `q`. -/
theorem r2_pay_apply (x0 : FVec Ideal S5000x10 .f32) (x1 : FVec Ideal S1x10 .f32) (p : Fin 5000) (q : Fin 10) :
    k2_pay1 (F := Ideal) x0 x1 (ix2 p q)
      = Cert.Spec.logSoftmaxAt 10 (fun k => x0 (ix2 p k) + x1 (ix2 (0 : Fin 1) k)) q := by
  unfold k2_pay1
  refine (r2_blockLogSoftmax_apply (M := 5000) (N := 10)
    (addf (shapeCast S5000x10 x0 shapeCasts_S5000x10_S5000x10)
      (broadcastTo S5000x10 (shapeCast S1x10 x1 shapeCasts_S1x10_S1x10) broadcasts_S1x10_S5000x10))
    reduces_S5000x10_S5000 (.inl rfl) rfl rfl shapeCasts_S5000_S5000x1 broadcasts_S5000x1_S5000x10 p q).trans ?_
  refine congrArg (fun z => Cert.Spec.logSoftmaxAt 10 z q) (funext fun k => ?_)
  show shapeCast S5000x10 x0 shapeCasts_S5000x10_S5000x10 (ix2 p k)
      + broadcastTo S5000x10 (shapeCast S1x10 x1 shapeCasts_S1x10_S1x10) broadcasts_S1x10_S5000x10 (ix2 p k) = _
  rw [shapeCast_self, shapeCast_self]
  exact congrArg (x0 (ix2 p k) + ·) (r2_rowBroadcast_apply x1 broadcasts_S1x10_S5000x10 p k)

/-- The same at an index of the block, by its coordinates. -/
theorem r2_pay_at (x0 : FVec Ideal S5000x10 .f32) (x1 : FVec Ideal S1x10 .f32) (j : S5000x10.Idx) :
    k2_pay1 (F := Ideal) x0 x1 j
      = Cert.Spec.logSoftmaxAt 10 (fun k => x0 (ix2 (⟨(j 0).val, idx2_lt0 j⟩ : Fin 5000) k) + x1 (ix2 (0 : Fin 1) k))
          (⟨(j 1).val, idx2_lt1 j⟩ : Fin 10) := by
  obtain ⟨p, q, rfl⟩ : ∃ (p : Fin 5000) (q : Fin 10), j = ix2 p q := ⟨j 0, j 1, eq_ix2 j⟩
  exact r2_pay_apply x0 x1 p q

/-! ## From the tiles to the array -/

variable (V : (c : Dev nD) → (b : Ref sig .tc) → Buf (Elt Ideal) ((c : Thread nD τ).loc b))

theorem r2_hz : (![0, 0] : Fin 2 → Nat) = fun _ => 0 := funext fun a => by fin_cases a <;> rfl

/-- The printed index maps of the region's three windows, decided over the 20 grid points: the input rows move with the
    output rows, tile `t` at row block `t`; every other block index is 0. -/
theorem r2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Tile `t`'s block of the aggregate is rows 5000·t … 5000·t + 4999 of the array the region finds. -/
theorem r2_iblk0_apply (c : Dev nD) (t : Fin cfg2.N) (y : S5000x10.Idx) (i : S100000x10.Idx)
    (h0 : (i 0).val = 5000 * t.val + (y 0).val) (h1 : (i 1).val = (y 1).val) :
    (iblk2 (F := Ideal) V c 0 t : FVec Ideal S5000x10 .f32) y = (V c main_v62 : FVec Ideal S100000x10 .f32) i := by
  obtain ⟨e0, e1, e2, e3, e4, e5⟩ := r2_idx_facts t
  unfold iblk2
  rw [View.read_apply]
  show (V c main_v62 : FVec Ideal S100000x10 .f32) _ = (V c main_v62 : FVec Ideal S100000x10 .f32) i
  congr 1
  funext a
  apply Fin.ext
  match a with
  | ⟨0, _⟩ => show win2_0.index t (0 : Fin 2) * 5000 + 1 * (y 0).val = (i 0).val; omega
  | ⟨1, _⟩ => show win2_0.index t (1 : Fin 2) * 10 + 1 * (y 1).val = (i 1).val; omega

/-- Every tile's block of the bias row is the whole [1, 10] array. -/
theorem r2_iblk1_apply (c : Dev nD) (t : Fin cfg2.N) (y : S1x10.Idx) :
    (iblk2 (F := Ideal) V c 1 t : FVec Ideal S1x10 .f32) y = (V c main_v63 : FVec Ideal S1x10 .f32) y := by
  obtain ⟨e0, e1, e2, e3, e4, e5⟩ := r2_idx_facts t
  unfold iblk2
  rw [View.read_apply]
  show (V c main_v63 : FVec Ideal S1x10 .f32) _ = (V c main_v63 : FVec Ideal S1x10 .f32) y
  congr 1
  funext a
  apply Fin.ext
  match a with
  | ⟨0, _⟩ => show win2_1.index t (0 : Fin 2) * 1 + 1 * (y 0).val = (y 0).val; omega
  | ⟨1, _⟩ => show win2_1.index t (1 : Fin 2) * 10 + 1 * (y 1).val = (y 1).val; omega

/-- WHAT TILE `t` WRITES BACK is block `t` of the log-softmax of the aggregate plus the bias row, as the region finds them. -/
theorem r2_flushed_eq (c : Dev nD) (t : Fin cfg2.N) :
    (dat2 (F := Ideal) V c).flushed 2 t
      = ((cfg2.win 2).blk t).view.read (Elt Ideal) (Cert.Spec.biasLogSoftmax 100000 10 (V c main_v62) (V c main_v63)) := by
  show (cfg2.win 2).cut (grid2.coords t) ((dat2 (F := Ideal) V c).after 2 t) = _
  rw [after2_2]
  unfold out2_2
  rw [View.canon_unit_zero r2_hz]
  simp only [View.ld_unit_zero (S := S5000x10) r2_hz, View.ld_unit_zero (S := S1x10) r2_hz]
  obtain ⟨e0, e1, e2, e3, e4, e5⟩ := r2_idx_facts t
  funext j
  show k2_pay1 (F := Ideal) (iblk2 V c 0 t) (iblk2 V c 1 t) j
    = Cert.Spec.biasLogSoftmax 100000 10 (V c main_v62) (V c main_v63) (((cfg2.win 2).blk t).view.emb j)
  have h0 : ((((cfg2.win 2).blk t).view.emb j) 0).val = 5000 * t.val + (j 0).val := by
    show win2_2.index t (0 : Fin 2) * 5000 + 1 * (j 0).val = _
    omega
  have h1 : ((((cfg2.win 2).blk t).view.emb j) 1).val = (j 1).val := by
    show win2_2.index t (1 : Fin 2) * 10 + 1 * (j 1).val = _
    omega
  refine (r2_pay_at (iblk2 V c 0 t) (iblk2 V c 1 t) j).trans ?_
  unfold Cert.Spec.biasLogSoftmax
  refine congrArg₂ (Cert.Spec.logSoftmaxAt 10) (funext fun k => ?_) (Fin.ext h1.symm)
  unfold Cert.Spec.biasRow
  exact congrArg₂ (fun u v : EReal => u + v) (r2_iblk0_apply V c t _ _ h0 rfl) (r2_iblk1_apply V c t _)

/-- An index of the output array is in tile `t`'s block iff each coordinate is in the block's range on its axis. -/
theorem r2_mem_blk (t : Fin cfg2.N) (i : S100000x10.Idx) :
    i ∈ ((cfg2.win 2).blk t).view.set
      ↔ ∀ a : Fin 2, win2_2.index t a * S5000x10.size a ≤ (i a).val ∧ (i a).val < win2_2.index t a * S5000x10.size a + S5000x10.size a := by
  show i ∈ ((View.whole main_v64).slice (win2_2.rect t)).set ↔ _
  rw [View.set_slice_whole, Rect.mem_set_unit]
  exact Iff.rfl

/-- Every index of the output array is in some tile's block: row `r` is in tile `r / 5000`'s. -/
theorem r2_cover (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 20 := N_2
  have hlt : (i 0).val / 5000 < cfg2.N := by rw [hN]; omega
  obtain ⟨e0, e1, e2, e3, e4, e5⟩ := r2_idx_facts ⟨(i 0).val / 5000, hlt⟩
  refine ⟨⟨(i 0).val / 5000, hlt⟩, flush2_2 _, ?_⟩
  rw [r2_mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hlt⟩ (1 : Fin 2) * 10 ≤ (i 1).val
      ∧ (i 1).val < win2_2.index ⟨(i 0).val / 5000, hlt⟩ (1 : Fin 2) * 10 + 10
    omega

/-- THE OUTPUT ARRAY after region 2: the row-wise log-softmax of the aggregate plus the bias row, as the region finds them. -/
theorem final2 (c : Dev nD) :
    (dat2 (F := Ideal) V c).arrAt 2 cfg2.N = Cert.Spec.biasLogSoftmax 100000 10 (V c main_v62) (V c main_v63) :=
  (dat2 (F := Ideal) V c).arrAt_eq_of_cover 2 _ (fun t _ => r2_flushed_eq V c t) r2_cover

end Cert.KernelIdeal.RegionValue

end
-- ==== Proof.RefBias.lean ====
/-
  The reference's bias-and-relu stage and the two bias rows. Adding a bias vector to every row of a matrix and
  taking the maximum with zero is, entry (r, k), max (a[r, k] + b[k]) 0; and a vector of length n laid out as a
  [1, n] row is the same row whether it is reshaped or broadcast along a new leading axis: both read b[k] at (0, k).
-/
import proofs.«165762_j11416023073012_2_alg».proof.Proof.Gen.ReferenceIdeal
import proofs.«165762_j11416023073012_2_alg».proof.Proof.Gen.KernelIdeal
import proofs.«165762_j11416023073012_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic
open Idealize.ShloMosaic.ValueIdx

/-- A [1, n] row broadcast over the rows of an [m, n] matrix reads, at (r, k), the row at (0, k). -/
theorem bcastRow16_apply (R : FVec Ideal S1x16 .f32) (i : S100000x16.Idx) :
    broadcastInDim S100000x16 ![0, 1] bcast_S1x16_S100000x16_0_1 R i = R (ix2 (0 : Fin 1) (⟨(i 1).val, idx2_lt1 i⟩ : Fin 16)) :=
  broadcastInDim_apply ![0, 1] bcast_S1x16_S100000x16_0_1 R i (ix2 (0 : Fin 1) (⟨(i 1).val, idx2_lt1 i⟩ : Fin 16)) (fun a => by
    match a with
    | ⟨0, _⟩ => rfl
    | ⟨1, _⟩ => rfl)

/-- The scalar zero broadcast to a matrix reads the float word 0 everywhere. -/
theorem bcastZero16_apply (i : S100000x16.Idx) :
    broadcastInDim S100000x16 ![] bcast_S_S100000x16 (constant (F := Ideal) S_ .f32 0x00000000#32) i = Ideal.ofBits .f32 0x00000000#32 :=
  (broadcastInDim_apply ![] bcast_S_S100000x16 (constant (F := Ideal) S_ .f32 0x00000000#32) i ix0 (fun a => a.elim0)).trans rfl

theorem biasRelu_ref (a : FVec Ideal S100000x16 .f32) (b : FVec Ideal S16 .f32) :
    maximumf (addf a (broadcastInDim S100000x16 ![0, 1] bcast_S1x16_S100000x16_0_1 (broadcastInDim S1x16 ![1] bcast_S16_S1x16_1 b)))
        (broadcastInDim S100000x16 ![] bcast_S_S100000x16 (constant (F := Ideal) S_ .f32 0x00000000#32))
      = Cert.Spec.biasRelu 100000 16 a (broadcastInDim S1x16 ![1] bcast_S16_S1x16_1 b) := by
  funext i
  show max (a i + broadcastInDim S100000x16 ![0, 1] bcast_S1x16_S100000x16_0_1 (broadcastInDim S1x16 ![1] bcast_S16_S1x16_1 b) i)
      (broadcastInDim S100000x16 ![] bcast_S_S100000x16 (constant (F := Ideal) S_ .f32 0x00000000#32) i)
    = max (a i + broadcastInDim S1x16 ![1] bcast_S16_S1x16_1 b (ix2 (0 : Fin 1) (⟨(i 1).val, idx2_lt1 i⟩ : Fin 16))) (Ideal.ofBits .f32 0x00000000#32)
  rw [bcastRow16_apply, bcastZero16_apply]

/-- A vector broadcast along a new leading unit axis reads, at (u, k), the vector at k. -/
theorem bcastLead16_apply (b : FVec Ideal S16 .f32) (u : Fin 1) (k : Fin 16) :
    broadcastInDim S1x16 ![1] bcast_S16_S1x16_1 b (ix2 u k) = b (ix1 k) :=
  broadcastInDim_apply ![1] bcast_S16_S1x16_1 b (ix2 u k) (ix1 k) (fun a => by
    match a with
    | ⟨0, _⟩ => rfl)

theorem bcastLead10_apply (b : FVec Ideal S10 .f32) (u : Fin 1) (k : Fin 10) :
    broadcastInDim S1x10 ![1] bcast_S10_S1x10_1 b (ix2 u k) = b (ix1 k) :=
  broadcastInDim_apply ![1] bcast_S10_S1x10_1 b (ix2 u k) (ix1 k) (fun a => by
    match a with
    | ⟨0, _⟩ => rfl)

theorem row16_eq (b : FVec Ideal S16 .f32) :
    (shapeCast Cert.KernelIdeal.S1x16 b Cert.KernelIdeal.Gen.shapeCasts_S16_S1x16 : (⟨2, ![1, 16]⟩ : Shape).Idx → EReal)
      = broadcastInDim S1x16 ![1] bcast_S16_S1x16_1 b := by
  funext i
  obtain ⟨u, k, rfl⟩ : ∃ (u : Fin 1) (k : Fin 16), i = ix2 u k := ⟨i 0, i 1, eq_ix2 i⟩
  exact (shapeCast_a_1a_apply b Cert.KernelIdeal.Gen.shapeCasts_S16_S1x16 u k).trans (bcastLead16_apply b u k).symm

theorem row10_eq (b : FVec Ideal S10 .f32) :
    (shapeCast Cert.KernelIdeal.S1x10 b Cert.KernelIdeal.Gen.shapeCasts_S10_S1x10 : (⟨2, ![1, 10]⟩ : Shape).Idx → EReal)
      = broadcastInDim S1x10 ![1] bcast_S10_S1x10_1 b := by
  funext i
  obtain ⟨u, k, rfl⟩ : ∃ (u : Fin 1) (k : Fin 10), i = ix2 u k := ⟨i 0, i 1, eq_ix2 i⟩
  exact (shapeCast_a_1a_apply b Cert.KernelIdeal.Gen.shapeCasts_S10_S1x10 u k).trans (bcastLead10_apply b u k).symm

end Cert.ReferenceIdeal.RefValue

end
-- ==== Proof.KernelValue.lean ====
/-
  The idealized kernel's result array as ONE function of the seven arguments. Each tiled region leaves in its output
  array the dense function of the arrays it reads (a matrix product; a bias, relu and matrix product; a bias and row-wise
  log-softmax); between the regions the host aggregates the previous result over the normalized edges and lays the
  bias out as one row. Substituting each stage into the next, from the last region back to the launch memory, gives
  the network function `netOut` of the arguments.
-/
import proofs.«165762_j11416023073012_2_alg».proof.Proof.KernelHost
import proofs.«165762_j11416023073012_2_alg».proof.Proof.NetOut
import proofs.«165762_j11416023073012_2_alg».proof.Proof.Region0
import proofs.«165762_j11416023073012_2_alg».proof.Proof.Region1
import proofs.«165762_j11416023073012_2_alg».proof.Proof.Region2
import proofs.«165762_j11416023073012_2_alg».proof.Proof.RefBias

noncomputable section

namespace Cert.KernelIdeal.HostValue

open Cert.KernelIdeal Cert.KernelIdeal.Gen
open Idealize.ShloMosaic Idealize.ShloMosaic.TcCoe Idealize.SL.Sem
open Cert.ReferenceIdeal.HostFns

/-- After the first region its output array holds the first product of the launched features and weights. -/
theorem kv_out0 (m : (ℓ : Loc nD τ sig) → Buf (Elt Ideal) ℓ) (ρ : Dev nD → PrngReg) (c : Dev nD) :
    W4 m ρ c (Proc.devRef .tc main_v32)
      = Cert.Spec.matProd 100000 512 16 (m ((c : Thread nD τ).loc main_arg0)) (m ((c : Thread nD τ).loc main_arg3)) := by
  refine (W4_arr m ρ c 2).trans ?_
  refine (Cert.KernelIdeal.RegionValue.final0 (V3 m ρ) c).trans ?_
  have a0 : V3 m ρ c main_arg0 = m ((c : Thread nD τ).loc main_arg0) := W3_arg0 m ρ c
  have a3 : V3 m ρ c main_arg3 = m ((c : Thread nD τ).loc main_arg3) := W3_arg3 m ρ c
  rw [a0, a3]

/-- After the second region its output array holds the second product of the first layer's output — the first product
    aggregated over the normalized edges, plus the bias, under relu — and the second weights. -/
theorem kv_out1 (m : (ℓ : Loc nD τ sig) → Buf (Elt Ideal) ℓ) (ρ : Dev nD → PrngReg) (c : Dev nD) :
    W6 m ρ c (Proc.devRef .tc main_v48)
      = Cert.Spec.matProd 100000 16 10
          (Cert.Spec.biasRelu 100000 16
            (aggregate16 (F := Ideal) (srcIx (m ((c : Thread nD τ).loc main_arg1))) (dstIx (m ((c : Thread nD τ).loc main_arg1)))
              (norm (F := Ideal) (m ((c : Thread nD τ).loc main_arg1)) (m ((c : Thread nD τ).loc main_arg2)))
              (Cert.Spec.matProd 100000 512 16 (m ((c : Thread nD τ).loc main_arg0)) (m ((c : Thread nD τ).loc main_arg3))))
            (broadcastInDim Cert.ReferenceIdeal.S1x16 ![1] Cert.ReferenceIdeal.Gen.bcast_S16_S1x16_1 (m ((c : Thread nD τ).loc main_arg4))))
          (m ((c : Thread nD τ).loc main_arg5)) := by
  refine (W6_arr m ρ c 3).trans ?_
  refine (Cert.KernelIdeal.RegionValue.final1 (V5 m ρ) c).trans ?_
  rw [V5_agg m ρ c, V5_bias m ρ c, V5_arg5 m ρ c, kv_out0 m ρ c, Cert.ReferenceIdeal.RefValue.row16_eq]

/-- THE KERNEL'S RESULT ARRAY after the last region: the network function of the seven launched arguments. -/
theorem kernel_value (m : (ℓ : Loc nD τ sig) → Buf (Elt Ideal) ℓ) (ρ : Dev nD → PrngReg) (c : Dev nD) :
    W8 m ρ c (Proc.devRef .tc main_v64)
      = Cert.ReferenceIdeal.HostFns.netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Cert.KernelIdeal.RegionValue.final2 (V7 m ρ) c).trans ?_
  rw [V7_agg m ρ c, V7_bias m ρ c, kv_out1 m ρ c, Cert.ReferenceIdeal.RefValue.row10_eq]
  unfold Cert.ReferenceIdeal.HostFns.netOut
  rfl

end Cert.KernelIdeal.HostValue

end
-- ==== Proof.RefLogSoftmax.lean ====
/-
  The reference's log-softmax stage, read as a whole array. The reference prints it as: the row maximum (a reduce of max from the float word
  of −∞, then one more max against that word), broadcast back over the row and subtracted; the exponentials' row sum (a reduce
  of add from the zero word), its logarithm broadcast back and subtracted. Per row, with z the row and μ its maximum, that is
  (z − μ) − log Σ exp (z − μ): the specification's `logSoftmaxAt`; applied to an aggregate plus a broadcast bias row it is
  `Cert.Spec.biasLogSoftmax`.
-/
import proofs.«165762_j11416023073012_2_alg».proof.Proof.Gen.ReferenceIdeal
import proofs.«165762_j11416023073012_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic
open Idealize.ShloMosaic.ValueIdx

/-- The log-softmax stage as the reference prints it, of the array it is applied to. -/
def logSoftmaxChain (z : FVec Ideal S100000x10 .f32) : FVec Ideal S100000x10 .f32 :=
  subf
    (subf z (broadcastInDim S100000x10 ![0, 1] bcast_S100000x1_S100000x10_0_1 (broadcastInDim S100000x1 ![0] bcast_S100000_S100000x1_0
      (maximumf (broadcastInDim S100000 ![] bcast_S_S100000 (constant (F := Ideal) S_ .f32 0xFF800000#32))
        (Host.reduce FloatOps.maximumf z (constant (F := Ideal) S_ .f32 0xFF800000#32) reducesTo_S100000x10_S100000_d1 h_S_)))))
    (broadcastInDim S100000x10 ![0, 1] bcast_S100000x1_S100000x10_0_1 (Host.log (broadcastInDim S100000x1 ![0] bcast_S100000_S100000x1_0
      (Host.reduceAdd (Host.exp (subf z (broadcastInDim S100000x10 ![0, 1] bcast_S100000x1_S100000x10_0_1 (broadcastInDim S100000x1 ![0] bcast_S100000_S100000x1_0
        (maximumf (broadcastInDim S100000 ![] bcast_S_S100000 (constant (F := Ideal) S_ .f32 0xFF800000#32))
          (Host.reduce FloatOps.maximumf z (constant (F := Ideal) S_ .f32 0xFF800000#32) reducesTo_S100000x10_S100000_d1 h_S_))))))
        (constant (F := Ideal) S_ .f32 0x00000000#32) reducesTo_S100000x10_S100000_d1 h_S_))))

/-! ## The layout operations of the chain read at an index -/

/-- The reduce's shape fact in the form that names the inserted index. -/
theorem ls_reduces : S100000x10.Reduces [1] S100000 := by decide

/-- The source index over row `p` with `k` on the reduced (second) axis is (p, k). -/
theorem ls_lift_row (p : Fin 100000) (k : Fin 10) : ls_reduces.lift (ix1 p) k = ix2 p k := by
  funext c
  match c with
  | ⟨0, _⟩ => rfl
  | ⟨1, _⟩ => rfl

/-- A column [100000, 1] broadcast to [100000, 10] reads its row. -/
theorem ls_colBroadcast_apply {α : Type} (y : S100000x1.Idx → α) (p : Fin 100000) (q : Fin 10) :
    broadcastInDim S100000x10 ![0, 1] bcast_S100000x1_S100000x10_0_1 y (ix2 p q) = y (ix2 p (0 : Fin 1)) := by
  refine broadcastInDim_apply ![0, 1] bcast_S100000x1_S100000x10_0_1 y (ix2 p q) (ix2 p (0 : Fin 1)) (fun a => ?_)
  match a with
  | ⟨0, _⟩ => exact (if_neg (show ¬ ((100000 : Nat) = 1) by decide)).symm
  | ⟨1, _⟩ => exact (if_pos rfl).symm

/-- A per-row vector [100000] broadcast to a column [100000, 1] reads its row. -/
theorem ls_toCol_apply {α : Type} (x : S100000.Idx → α) (p : Fin 100000) :
    broadcastInDim S100000x1 ![0] bcast_S100000_S100000x1_0 x (ix2 p (0 : Fin 1)) = x (ix1 p) := by
  refine broadcastInDim_apply ![0] bcast_S100000_S100000x1_0 x (ix2 p (0 : Fin 1)) (ix1 p) (fun a => ?_)
  match a with
  | ⟨0, _⟩ => exact (if_neg (show ¬ ((100000 : Nat) = 1) by decide)).symm

/-- A scalar broadcast to [100000] reads the scalar. -/
theorem ls_splat_apply {α : Type} (s : S_.Idx → α) (p : Fin 100000) :
    broadcastInDim S100000 ![] bcast_S_S100000 s (ix1 p) = s ix0 :=
  broadcastInDim_apply ![] bcast_S_S100000 s (ix1 p) ix0 (fun a => a.elim0)

/-- A bias row [1, 10] broadcast to [100000, 10] reads its column. -/
theorem ls_rowBroadcast_apply {α : Type} (x : S1x10.Idx → α) (p : Fin 100000) (q : Fin 10) :
    broadcastInDim S100000x10 ![0, 1] bcast_S1x10_S100000x10_0_1 x (ix2 p q) = x (ix2 (0 : Fin 1) q) := by
  refine broadcastInDim_apply ![0, 1] bcast_S1x10_S100000x10_0_1 x (ix2 p q) (ix2 (0 : Fin 1) q) (fun a => ?_)
  match a with
  | ⟨0, _⟩ => exact (if_pos rfl).symm
  | ⟨1, _⟩ => exact (if_neg (show ¬ ((10 : Nat) = 1) by decide)).symm

/-! ## The two reductions at a row -/

/-- The printed row maximum — a reduce of max from the float word of −∞, and one more max against that word — is the
    specification's `rowMax` of the row: the fold starts from that word, so it is already above it. -/
theorem ls_reduceMax_apply (z : FVec Ideal S100000x10 .f32) (p : Fin 100000) :
    Host.reduce FloatOps.maximumf z (constant (F := Ideal) S_ .f32 0xFF800000#32) reducesTo_S100000x10_S100000_d1 h_S_ (ix1 p)
      = Cert.Spec.rowMax 10 (fun k => z (ix2 p k)) := by
  refine (Host.reduce_eq_fold_single FloatOps.maximumf z (constant (F := Ideal) S_ .f32 0xFF800000#32)
    reducesTo_S100000x10_S100000_d1 ls_reduces h_S_ (ix1 p)).trans ?_
  show (Finset.univ : Finset (Fin 10)).fold max (Ideal.ofBits .f32 0xFF800000#32) (fun k => z (ls_reduces.lift (ix1 p) k)) = _
  unfold Cert.Spec.rowMax
  congr 1
  funext k
  exact congrArg z (ls_lift_row p k)

/-- A fold of max is above the value it starts from. -/
theorem ls_le_fold_max {ι : Type} (s : Finset ι) (b : EReal) (f : ι → EReal) : b ≤ s.fold max b f := by
  classical
  induction s using Finset.induction_on with
  | empty => rw [Finset.fold_empty]
  | insert a s ha ih => rw [Finset.fold_insert ha]; exact le_max_of_le_right ih

theorem ls_rowMax_apply (z : FVec Ideal S100000x10 .f32) (p : Fin 100000) :
    maximumf (broadcastInDim S100000 ![] bcast_S_S100000 (constant (F := Ideal) S_ .f32 0xFF800000#32))
        (Host.reduce FloatOps.maximumf z (constant (F := Ideal) S_ .f32 0xFF800000#32) reducesTo_S100000x10_S100000_d1 h_S_) (ix1 p)
      = Cert.Spec.rowMax 10 (fun k => z (ix2 p k)) := by
  refine (maximumf_apply _ _ (ix1 p)).trans ?_
  rw [ls_reduceMax_apply, ls_splat_apply, constant_apply]
  exact max_eq_right (ls_le_fold_max _ _ _)

/-- The printed row sum — a reduce of add from the zero word — is the sum over the row. -/
theorem ls_rowSum_apply (e : FVec Ideal S100000x10 .f32) (p : Fin 100000) :
    Host.reduceAdd e (constant (F := Ideal) S_ .f32 0x00000000#32) reducesTo_S100000x10_S100000_d1 h_S_ (ix1 p)
      = ∑ k : Fin 10, e (ix2 p k) := by
  unfold Host.reduceAdd
  rw [Ideal.hostReduceAdd_def, Ideal.hostReduceAdd_single reducesTo_S100000x10_S100000_d1 ls_reduces, constant_apply,
    Ideal.ofBits_zero_f32, zero_add]
  exact Finset.sum_congr rfl fun k _ => congrArg e (ls_lift_row p k)

/-! ## The chain at an index, and as a whole array -/

/-- The host's exponential and logarithm read at an index. -/
theorem ls_hostExp_apply {s : Shape} (x : FVec Ideal s .f32) (i : s.Idx) : Host.exp x i = Ideal.exp (x i) := rfl
theorem ls_hostLog_apply {s : Shape} (x : FVec Ideal s .f32) (i : s.Idx) : Host.log x i = Ideal.log (x i) := rfl

/-- THE CHAIN AT (p, q): the specification's `logSoftmaxAt` of row `p` at `q`. -/
theorem ls_chain_apply (z : FVec Ideal S100000x10 .f32) (p : Fin 100000) (q : Fin 10) :
    logSoftmaxChain z (ix2 p q) = Cert.Spec.logSoftmaxAt 10 (fun k => z (ix2 p k)) q := by
  unfold logSoftmaxChain
  have hsub : ∀ q' : Fin 10, subf z (broadcastInDim S100000x10 ![0, 1] bcast_S100000x1_S100000x10_0_1 (broadcastInDim S100000x1 ![0] bcast_S100000_S100000x1_0
        (maximumf (broadcastInDim S100000 ![] bcast_S_S100000 (constant (F := Ideal) S_ .f32 0xFF800000#32))
          (Host.reduce FloatOps.maximumf z (constant (F := Ideal) S_ .f32 0xFF800000#32) reducesTo_S100000x10_S100000_d1 h_S_)))) (ix2 p q')
      = z (ix2 p q') - Cert.Spec.rowMax 10 (fun k => z (ix2 p k)) := fun q' =>
    (subf_apply _ _ _).trans
      (congrArg (z (ix2 p q') - ·) (((ls_colBroadcast_apply _ p q').trans (ls_toCol_apply _ p)).trans (ls_rowMax_apply z p)))
  have hlog : broadcastInDim S100000x10 ![0, 1] bcast_S100000x1_S100000x10_0_1 (Host.log (broadcastInDim S100000x1 ![0] bcast_S100000_S100000x1_0
        (Host.reduceAdd (Host.exp (subf z (broadcastInDim S100000x10 ![0, 1] bcast_S100000x1_S100000x10_0_1 (broadcastInDim S100000x1 ![0] bcast_S100000_S100000x1_0
          (maximumf (broadcastInDim S100000 ![] bcast_S_S100000 (constant (F := Ideal) S_ .f32 0xFF800000#32))
            (Host.reduce FloatOps.maximumf z (constant (F := Ideal) S_ .f32 0xFF800000#32) reducesTo_S100000x10_S100000_d1 h_S_))))))
          (constant (F := Ideal) S_ .f32 0x00000000#32) reducesTo_S100000x10_S100000_d1 h_S_))) (ix2 p q)
      = Ideal.log (∑ k : Fin 10, Ideal.exp (z (ix2 p k) - Cert.Spec.rowMax 10 (fun k => z (ix2 p k)))) := by
    refine (ls_colBroadcast_apply _ p q).trans ?_
    refine (ls_hostLog_apply _ _).trans ?_
    refine congrArg Ideal.log (((ls_toCol_apply _ p).trans (ls_rowSum_apply _ p)).trans ?_)
    exact Finset.sum_congr rfl fun k _ => (ls_hostExp_apply _ _).trans (congrArg Ideal.exp (hsub k))
  refine (subf_apply _ _ _).trans ?_
  rw [hsub q, hlog]
  rfl

/-- THE CHAIN OF AN AGGREGATE PLUS A BROADCAST BIAS ROW is the specification's `biasLogSoftmax` of the two. -/
theorem logSoftmaxChain_eq (a : FVec Ideal S100000x10 .f32) (b : FVec Ideal S10 .f32) :
    logSoftmaxChain (addf a (broadcastInDim S100000x10 ![0, 1] bcast_S1x10_S100000x10_0_1 (broadcastInDim S1x10 ![1] bcast_S10_S1x10_1 b)))
      = Cert.Spec.biasLogSoftmax 100000 10 a (broadcastInDim S1x10 ![1] bcast_S10_S1x10_1 b) := by
  funext i
  obtain ⟨p, q, rfl⟩ : ∃ (p : Fin 100000) (q : Fin 10), i = ix2 p q := ⟨i 0, i 1, eq_ix2 i⟩
  refine (ls_chain_apply _ p q).trans ?_
  unfold Cert.Spec.biasLogSoftmax
  refine congrArg (fun z => Cert.Spec.logSoftmaxAt 10 z q) (funext fun k => ?_)
  exact (addf_apply _ _ _).trans (congrArg (a (ix2 p k) + ·) (ls_rowBroadcast_apply _ p k))

end Cert.ReferenceIdeal.RefValue

end
-- ==== Proof.RefStretch.lean ====
/-
  The reference's @main cut into fifteen stretches of consecutive host operations, and each stretch read on its own:
  from ANY contents W of the buffers, the buffer a stretch computes holds the stretch's operations applied to what W
  has at the buffers the stretch reads, and a buffer the stretch does not write holds what W has there. The
  graph-side stretches are the host functions of the edge list and the weights (endpoints with self loops, degrees,
  their inverse square roots, the normalization, the two aggregations); the dense stretches are the printed matrix
  products, bias additions and the relu; the last six stretches are the pieces of the row-wise log-softmax.
-/
import proofs.«165762_j11416023073012_2_alg».proof.Proof.Gen.ReferenceIdeal
import proofs.«165762_j11416023073012_2_alg».proof.Proof.HostFns
import proofs.«165762_j11416023073012_2_alg».proof.Proof.LibConcatCongr
import proofs.«165762_j11416023073012_2_alg».proof.Proof.RefLogSoftmax
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Cert.ReferenceIdeal.HostFns

section Stretches
variable {F : FTy → Type} [FloatOps F]

/-- Operations 1 to 19 of the reference's @main. -/
def sA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20 to 22 of the reference's @main. -/
def sB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 to 42 of the reference's @main. -/
def sC : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- Operations 43 to 62 of the reference's @main. -/
def sD : List (HloOp τ sig (Elt F)) :=
  [ binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)) ]

/-- Operations 63 to 65 of the reference's @main. -/
def sE : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- Operations 66 to 74 of the reference's @main. -/
def sF : List (HloOp τ sig (Elt F)) :=
  [ nullary main_cst_9 (constant S_ .f32 0x00000000#32),
    unary main_cst_9 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v8 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_11 (constant S_ .f32 0x00000000#32) ]

/-- Operations 75 to 77 of the reference's @main. -/
def sG : List (HloOp τ sig (Elt F)) :=
  [ TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

/-- Operations 78 to 97 of the reference's @main. -/
def sH : List (HloOp τ sig (Elt F)) :=
  [ nullary main_c_12 (constantI S_ 32 0#32),
    unary main_c_12 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v8 main_v64 (mulf : (⟨S3300000, .f32⟩ : BufTy).Contents (Elt F) → (⟨S3300000, .f32⟩ : BufTy).Contents (Elt F) → (⟨S3300000, .f32⟩ : BufTy).Contents (Elt F)),
    nullary main_c_14 (constantI S_ 32 0#32),
    unary main_c_14 main_v65 (broadcastInDim S3300000 ![] bcast_S_S3300000 : (⟨S_, .i32⟩ : BufTy).Contents (Elt F) → (⟨S3300000, .i32⟩ : BufTy).Contents (Elt F)),
    binary main_v6 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_15 (constantI S_ 32 100000#32),
    unary main_c_15 main_v67 (broadcastInDim S3300000 ![] bcast_S_S3300000 : (⟨S_, .i32⟩ : BufTy).Contents (Elt F) → (⟨S3300000, .i32⟩ : BufTy).Contents (Elt F)),
    binary main_v6 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v6 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v56 main_v70 main_v71 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v64 main_v71 main_v72 (mulf : (⟨S3300000, .f32⟩ : BufTy).Contents (Elt F) → (⟨S3300000, .f32⟩ : BufTy).Contents (Elt F) → (⟨S3300000, .f32⟩ : BufTy).Contents (Elt F)) ]

/-- Operations 98 to 117 of the reference's @main. -/
def sI : List (HloOp τ sig (Elt F)) :=
  [ binary main_v49 main_arg5 main_v73 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    unary main_v72 main_v74 (broadcastInDim S3300000x1 ![0] bcast_S3300000_S3300000x1_0 : (⟨S3300000, .f32⟩ : BufTy).Contents (Elt F) → (⟨S3300000x1, .f32⟩ : BufTy).Contents (Elt F)),
    nullary main_c_16 (constantI S_ 32 0#32),
    unary main_c_16 main_v75 (broadcastInDim S3300000 ![] bcast_S_S3300000 : (⟨S_, .i32⟩ : BufTy).Contents (Elt F) → (⟨S3300000, .i32⟩ : BufTy).Contents (Elt F)),
    binary main_v3 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_17 (constantI S_ 32 100000#32),
    unary main_c_17 main_v77 (broadcastInDim S3300000 ![] bcast_S_S3300000 : (⟨S_, .i32⟩ : BufTy).Contents (Elt F) → (⟨S3300000, .i32⟩ : BufTy).Contents (Elt F)),
    binary main_v3 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v3 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v73 main_v80 main_v81 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v74 main_v82 (broadcastInDim S3300000x10 ![0, 1] bcast_S3300000x1_S3300000x10_0_1 : (⟨S3300000x1, .f32⟩ : BufTy).Contents (Elt F) → (⟨S3300000x10, .f32⟩ : BufTy).Contents (Elt F)),
    binary main_v82 main_v81 main_v83 (mulf : (⟨S3300000x10, .f32⟩ : BufTy).Contents (Elt F) → (⟨S3300000x10, .f32⟩ : BufTy).Contents (Elt F) → (⟨S3300000x10, .f32⟩ : BufTy).Contents (Elt F)),
    nullary main_cst_18 (constant S_ .f32 0x00000000#32),
    unary main_cst_18 main_v84 (broadcastInDim S100000x10 ![] bcast_S_S100000x10 : (⟨S_, .f32⟩ : BufTy).Contents (Elt F) → (⟨S100000x10, .f32⟩ : BufTy).Contents (Elt F)),
    unary main_v6 main_v85 (broadcastInDim S3300000x1 ![0] bcast_S3300000_S3300000x1_0 : (⟨S3300000, .i32⟩ : BufTy).Contents (Elt F) → (⟨S3300000x1, .i32⟩ : BufTy).Contents (Elt F)),
    ternary main_v84 main_v85 main_v83 main_v86 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)),
    unary main_arg6 main_v87 (broadcastInDim S1x10 ![1] bcast_S10_S1x10_1 : (⟨S10, .f32⟩ : BufTy).Contents (Elt F) → (⟨S1x10, .f32⟩ : BufTy).Contents (Elt F)),
    unary main_v87 main_v88 (broadcastInDim S100000x10 ![0, 1] bcast_S1x10_S100000x10_0_1 : (⟨S1x10, .f32⟩ : BufTy).Contents (Elt F) → (⟨S100000x10, .f32⟩ : BufTy).Contents (Elt F)),
    binary main_v86 main_v88 main_v89 (addf : (⟨S100000x10, .f32⟩ : BufTy).Contents (Elt F) → (⟨S100000x10, .f32⟩ : BufTy).Contents (Elt F) → (⟨S100000x10, .f32⟩ : BufTy).Contents (Elt F)) ]

/-- Operations 118 to 118 of the reference's @main. -/
def sJa : List (HloOp τ sig (Elt F)) :=
  [ TRef.nullary (TRef.of (T := ⟨S_, .f32⟩) main_call3_cst) (constant S_ .f32 0xFF800000#32) ]

/-- Operations 119 to 119 of the reference's @main. -/
def sJb : List (HloOp τ sig (Elt F)) :=
  [ TRef.binary (TRef.of (T := ⟨S100000x10, .f32⟩) main_v89) (TRef.of (T := ⟨S_, .f32⟩) main_call3_cst) (TRef.of (T := ⟨S100000, .f32⟩) main_call3_v0) (fun x v => Host.reduce FloatOps.maximumf x v reducesTo_S100000x10_S100000_d1 h_S_) ]

/-- Operations 120 to 122 of the reference's @main. -/
def sJc : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 123 to 125 of the reference's @main. -/
def sJ2 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v89) (TRef.of (T := ⟨S100000x10, .f32⟩) main_call3_v4) (TRef.of (T := ⟨S100000x10, .f32⟩) main_call3_v5) subf ]

/-- Operations 126 to 129 of the reference's @main. -/
def sJ3 : List (HloOp τ sig (Elt F)) :=
  [ TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0) ]

/-- Operations 130 to 132 of the reference's @main. -/
def sJ4 : List (HloOp τ sig (Elt F)) :=
  [ TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v90) subf ]

end Stretches

/-- Reads a buffer after a stretch of host operations: each operation's result at its own buffer is its function of its
    operands, at any other buffer what was there. -/
macro "after_read" : tactic =>
  `(tactic| ((try simp only [after_cons, after_nil]); after_results_simp))

variable (W : Valuation τ sig (Elt Ideal))

/-! ### Operations 1 to 19 -/

set_option maxHeartbeats 4000000 in
theorem A_v3 (e : IVec S2x3200000 32) (he : W (Proc.devRef .tc main_arg1) = e) :
    after (sA (F := Ideal)) W (Proc.devRef .tc main_v3)
      = srcIx e := by
  subst he
  unfold sA
  after_read <;> rfl

set_option maxHeartbeats 4000000 in
theorem A_v6 (e : IVec S2x3200000 32) (he : W (Proc.devRef .tc main_arg1) = e) :
    after (sA (F := Ideal)) W (Proc.devRef .tc main_v6)
      = dstIx e := by
  subst he
  unfold sA
  after_read <;> rfl

set_option maxHeartbeats 4000000 in
theorem A_v8 (w : FVec Ideal S3200000 .f32) (hw : W (Proc.devRef .tc main_arg2) = w) :
    after (sA (F := Ideal)) W (Proc.devRef .tc main_v8)
      = wts (F := Ideal) w := by
  subst hw
  unfold sA
  after_read <;> rfl

set_option maxHeartbeats 4000000 in
theorem A_v13 (e : IVec S2x3200000 32) (w : FVec Ideal S3200000 .f32) (he : W (Proc.devRef .tc main_arg1) = e) (hw : W (Proc.devRef .tc main_arg2) = w) :
    after (sA (F := Ideal)) W (Proc.devRef .tc main_v13)
      = cmpf .ogt (deg (F := Ideal) e w) (broadcastInDim S100000 ![] bcast_S_S100000 (constant (F := Ideal) S_ .f32 0x00000000#32)) := by
  subst he hw
  unfold sA
  after_read <;> rfl

set_option maxHeartbeats 4000000 in
theorem A_v14 (e : IVec S2x3200000 32) (w : FVec Ideal S3200000 .f32) (he : W (Proc.devRef .tc main_arg1) = e) (hw : W (Proc.devRef .tc main_arg2) = w) :
    after (sA (F := Ideal)) W (Proc.devRef .tc main_v14)
      = Host.rsqrt (deg (F := Ideal) e w) := by
  subst he hw
  unfold sA
  after_read <;> rfl

set_option maxHeartbeats 4000000 in
theorem A_cst_2   :
    after (sA (F := Ideal)) W (Proc.devRef .tc main_cst_2)
      = (constant (F := Ideal) S_ .f32 0x00000000#32) := by
  unfold sA
  after_read <;> rfl

theorem A_keep_arg0 : after (sA (F := Ideal)) W (Proc.devRef .tc main_arg0) = W (Proc.devRef .tc main_arg0) := by
  unfold sA
  after_read

theorem A_keep_arg3 : after (sA (F := Ideal)) W (Proc.devRef .tc main_arg3) = W (Proc.devRef .tc main_arg3) := by
  unfold sA
  after_read

theorem A_keep_arg4 : after (sA (F := Ideal)) W (Proc.devRef .tc main_arg4) = W (Proc.devRef .tc main_arg4) := by
  unfold sA
  after_read

theorem A_keep_arg5 : after (sA (F := Ideal)) W (Proc.devRef .tc main_arg5) = W (Proc.devRef .tc main_arg5) := by
  unfold sA
  after_read

theorem A_keep_arg6 : after (sA (F := Ideal)) W (Proc.devRef .tc main_arg6) = W (Proc.devRef .tc main_arg6) := by
  unfold sA
  after_read

/-! ### Operations 20 to 22 -/

set_option maxHeartbeats 4000000 in
theorem B_v15 (p : IVec S100000 1) (r : FVec Ideal S100000 .f32) (z : FVec Ideal S_ .f32) (hp : W (Proc.devRef .tc main_v13) = p) (hr : W (Proc.devRef .tc main_v14) = r) (hz : W (Proc.devRef .tc main_cst_2) = z) :
    after (sB (F := Ideal)) W (Proc.devRef .tc main_v15)
      = select p r (broadcastInDim S100000 ![] bcast_S_S100000 (id z)) := by
  subst hp hr hz
  unfold sB
  after_read <;> rfl

theorem B_keep_v3 : after (sB (F := Ideal)) W (Proc.devRef .tc main_v3) = W (Proc.devRef .tc main_v3) := by
  unfold sB
  after_read

theorem B_keep_v6 : after (sB (F := Ideal)) W (Proc.devRef .tc main_v6) = W (Proc.devRef .tc main_v6) := by
  unfold sB
  after_read

theorem B_keep_v8 : after (sB (F := Ideal)) W (Proc.devRef .tc main_v8) = W (Proc.devRef .tc main_v8) := by
  unfold sB
  after_read

theorem B_keep_arg0 : after (sB (F := Ideal)) W (Proc.devRef .tc main_arg0) = W (Proc.devRef .tc main_arg0) := by
  unfold sB
  after_read

theorem B_keep_arg3 : after (sB (F := Ideal)) W (Proc.devRef .tc main_arg3) = W (Proc.devRef .tc main_arg3) := by
  unfold sB
  after_read

theorem B_keep_arg4 : after (sB (F := Ideal)) W (Proc.devRef .tc main_arg4) = W (Proc.devRef .tc main_arg4) := by
  unfold sB
  after_read

theorem B_keep_arg5 : after (sB (F := Ideal)) W (Proc.devRef .tc main_arg5) = W (Proc.devRef .tc main_arg5) := by
  unfold sB
  after_read

theorem B_keep_arg6 : after (sB (F := Ideal)) W (Proc.devRef .tc main_arg6) = W (Proc.devRef .tc main_arg6) := by
  unfold sB
  after_read

/-! ### Operations 23 to 42 -/

set_option maxHeartbeats 4000000 in
theorem C_v31 (d : FVec Ideal S100000 .f32) (i : IVec S3300000 32) (j : IVec S3300000 32) (ws : FVec Ideal S3300000 .f32) (hd : W (Proc.devRef .tc main_v15) = d) (hi : W (Proc.devRef .tc main_v3) = i) (hj : W (Proc.devRef .tc main_v6) = j) (hws : W (Proc.devRef .tc main_v8) = ws) :
    after (sC (F := Ideal)) W (Proc.devRef .tc main_v31)
      = mulf (mulf (Host.gather gather_S100000_S3300000x1_S3300000_n_0_n_n_0_1_1 d (wrapIx i)) ws) (Host.gather gather_S100000_S3300000x1_S3300000_n_0_n_n_0_1_1 d (wrapIx j)) := by
  subst hd hi hj hws
  unfold sC
  after_read <;> rfl

theorem C_keep_v3 : after (sC (F := Ideal)) W (Proc.devRef .tc main_v3) = W (Proc.devRef .tc main_v3) := by
  unfold sC
  after_read

theorem C_keep_v6 : after (sC (F := Ideal)) W (Proc.devRef .tc main_v6) = W (Proc.devRef .tc main_v6) := by
  unfold sC
  after_read

theorem C_keep_v8 : after (sC (F := Ideal)) W (Proc.devRef .tc main_v8) = W (Proc.devRef .tc main_v8) := by
  unfold sC
  after_read

theorem C_keep_arg0 : after (sC (F := Ideal)) W (Proc.devRef .tc main_arg0) = W (Proc.devRef .tc main_arg0) := by
  unfold sC
  after_read

theorem C_keep_arg3 : after (sC (F := Ideal)) W (Proc.devRef .tc main_arg3) = W (Proc.devRef .tc main_arg3) := by
  unfold sC
  after_read

theorem C_keep_arg4 : after (sC (F := Ideal)) W (Proc.devRef .tc main_arg4) = W (Proc.devRef .tc main_arg4) := by
  unfold sC
  after_read

theorem C_keep_arg5 : after (sC (F := Ideal)) W (Proc.devRef .tc main_arg5) = W (Proc.devRef .tc main_arg5) := by
  unfold sC
  after_read

theorem C_keep_arg6 : after (sC (F := Ideal)) W (Proc.devRef .tc main_arg6) = W (Proc.devRef .tc main_arg6) := by
  unfold sC
  after_read

/-! ### Operations 43 to 62 -/

set_option maxHeartbeats 4000000 in
theorem D_v48 (i : IVec S3300000 32) (j : IVec S3300000 32) (n : FVec Ideal S3300000 .f32) (x : FVec Ideal S100000x512 .f32) (w1 : FVec Ideal S512x16 .f32) (b1 : FVec Ideal S16 .f32) (hi : W (Proc.devRef .tc main_v3) = i) (hj : W (Proc.devRef .tc main_v6) = j) (hn : W (Proc.devRef .tc main_v31) = n) (hx : W (Proc.devRef .tc main_arg0) = x) (hw1 : W (Proc.devRef .tc main_arg3) = w1) (hb1 : W (Proc.devRef .tc main_arg4) = b1) :
    after (sD (F := Ideal)) W (Proc.devRef .tc main_v48)
      = addf (aggregate16 (F := Ideal) i j n (Host.dotGeneral (F := Ideal) dot_S100000x512_S512x16_S100000x16_1_0_0_1_n_n none x w1)) (broadcastInDim S100000x16 ![0, 1] bcast_S1x16_S100000x16_0_1 (broadcastInDim S1x16 ![1] bcast_S16_S1x16_1 b1)) := by
  subst hi hj hn hx hw1 hb1
  unfold sD
  after_read <;> rfl

theorem D_keep_v3 : after (sD (F := Ideal)) W (Proc.devRef .tc main_v3) = W (Proc.devRef .tc main_v3) := by
  unfold sD
  after_read

theorem D_keep_v6 : after (sD (F := Ideal)) W (Proc.devRef .tc main_v6) = W (Proc.devRef .tc main_v6) := by
  unfold sD
  after_read

theorem D_keep_v8 : after (sD (F := Ideal)) W (Proc.devRef .tc main_v8) = W (Proc.devRef .tc main_v8) := by
  unfold sD
  after_read

theorem D_keep_arg5 : after (sD (F := Ideal)) W (Proc.devRef .tc main_arg5) = W (Proc.devRef .tc main_arg5) := by
  unfold sD
  after_read

theorem D_keep_arg6 : after (sD (F := Ideal)) W (Proc.devRef .tc main_arg6) = W (Proc.devRef .tc main_arg6) := by
  unfold sD
  after_read

/-! ### Operations 63 to 65 -/

set_option maxHeartbeats 4000000 in
theorem E_v49 (a : FVec Ideal S100000x16 .f32) (ha : W (Proc.devRef .tc main_v48) = a) :
    after (sE (F := Ideal)) W (Proc.devRef .tc main_v49)
      = maximumf a (broadcastInDim S100000x16 ![] bcast_S_S100000x16 (constant (F := Ideal) S_ .f32 0x00000000#32)) := by
  subst ha
  unfold sE
  after_read <;> rfl

theorem E_keep_v3 : after (sE (F := Ideal)) W (Proc.devRef .tc main_v3) = W (Proc.devRef .tc main_v3) := by
  unfold sE
  after_read

theorem E_keep_v6 : after (sE (F := Ideal)) W (Proc.devRef .tc main_v6) = W (Proc.devRef .tc main_v6) := by
  unfold sE
  after_read

theorem E_keep_v8 : after (sE (F := Ideal)) W (Proc.devRef .tc main_v8) = W (Proc.devRef .tc main_v8) := by
  unfold sE
  after_read

theorem E_keep_arg5 : after (sE (F := Ideal)) W (Proc.devRef .tc main_arg5) = W (Proc.devRef .tc main_arg5) := by
  unfold sE
  after_read

theorem E_keep_arg6 : after (sE (F := Ideal)) W (Proc.devRef .tc main_arg6) = W (Proc.devRef .tc main_arg6) := by
  unfold sE
  after_read

/-! ### Operations 66 to 74 -/

set_option maxHeartbeats 4000000 in
theorem F_v54 (j : IVec S3300000 32) (ws : FVec Ideal S3300000 .f32) (hj : W (Proc.devRef .tc main_v6) = j) (hws : W (Proc.devRef .tc main_v8) = ws) :
    after (sF (F := Ideal)) W (Proc.devRef .tc main_v54)
      = cmpf .ogt (Host.scatterAdd scatter_S100000_S3300000x1_S3300000_n_0_0_1 (broadcastInDim S100000 ![] bcast_S_S100000 (constant (F := Ideal) S_ .f32 0x00000000#32)) (broadcastInDim S3300000x1 ![0] bcast_S3300000_S3300000x1_0 j) ws) (broadcastInDim S100000 ![] bcast_S_S100000 (constant (F := Ideal) S_ .f32 0x00000000#32)) := by
  subst hj hws
  unfold sF
  after_read <;> rfl

set_option maxHeartbeats 4000000 in
theorem F_v55 (j : IVec S3300000 32) (ws : FVec Ideal S3300000 .f32) (hj : W (Proc.devRef .tc main_v6) = j) (hws : W (Proc.devRef .tc main_v8) = ws) :
    after (sF (F := Ideal)) W (Proc.devRef .tc main_v55)
      = Host.rsqrt (Host.scatterAdd scatter_S100000_S3300000x1_S3300000_n_0_0_1 (broadcastInDim S100000 ![] bcast_S_S100000 (constant (F := Ideal) S_ .f32 0x00000000#32)) (broadcastInDim S3300000x1 ![0] bcast_S3300000_S3300000x1_0 j) ws) := by
  subst hj hws
  unfold sF
  after_read <;> rfl

set_option maxHeartbeats 4000000 in
theorem F_cst_11   :
    after (sF (F := Ideal)) W (Proc.devRef .tc main_cst_11)
      = (constant (F := Ideal) S_ .f32 0x00000000#32) := by
  unfold sF
  after_read <;> rfl

theorem F_keep_v3 : after (sF (F := Ideal)) W (Proc.devRef .tc main_v3) = W (Proc.devRef .tc main_v3) := by
  unfold sF
  after_read

theorem F_keep_v6 : after (sF (F := Ideal)) W (Proc.devRef .tc main_v6) = W (Proc.devRef .tc main_v6) := by
  unfold sF
  after_read

theorem F_keep_v8 : after (sF (F := Ideal)) W (Proc.devRef .tc main_v8) = W (Proc.devRef .tc main_v8) := by
  unfold sF
  after_read

theorem F_keep_v49 : after (sF (F := Ideal)) W (Proc.devRef .tc main_v49) = W (Proc.devRef .tc main_v49) := by
  unfold sF
  after_read

theorem F_keep_arg5 : after (sF (F := Ideal)) W (Proc.devRef .tc main_arg5) = W (Proc.devRef .tc main_arg5) := by
  unfold sF
  after_read

theorem F_keep_arg6 : after (sF (F := Ideal)) W (Proc.devRef .tc main_arg6) = W (Proc.devRef .tc main_arg6) := by
  unfold sF
  after_read

/-! ### Operations 75 to 77 -/

set_option maxHeartbeats 4000000 in
theorem G_v56 (p : IVec S100000 1) (r : FVec Ideal S100000 .f32) (z : FVec Ideal S_ .f32) (hp : W (Proc.devRef .tc main_v54) = p) (hr : W (Proc.devRef .tc main_v55) = r) (hz : W (Proc.devRef .tc main_cst_11) = z) :
    after (sG (F := Ideal)) W (Proc.devRef .tc main_v56)
      = select p r (broadcastInDim S100000 ![] bcast_S_S100000 (id z)) := by
  subst hp hr hz
  unfold sG
  after_read <;> rfl

theorem G_keep_v3 : after (sG (F := Ideal)) W (Proc.devRef .tc main_v3) = W (Proc.devRef .tc main_v3) := by
  unfold sG
  after_read

theorem G_keep_v6 : after (sG (F := Ideal)) W (Proc.devRef .tc main_v6) = W (Proc.devRef .tc main_v6) := by
  unfold sG
  after_read

theorem G_keep_v8 : after (sG (F := Ideal)) W (Proc.devRef .tc main_v8) = W (Proc.devRef .tc main_v8) := by
  unfold sG
  after_read

theorem G_keep_v49 : after (sG (F := Ideal)) W (Proc.devRef .tc main_v49) = W (Proc.devRef .tc main_v49) := by
  unfold sG
  after_read

theorem G_keep_arg5 : after (sG (F := Ideal)) W (Proc.devRef .tc main_arg5) = W (Proc.devRef .tc main_arg5) := by
  unfold sG
  after_read

theorem G_keep_arg6 : after (sG (F := Ideal)) W (Proc.devRef .tc main_arg6) = W (Proc.devRef .tc main_arg6) := by
  unfold sG
  after_read

/-! ### Operations 78 to 97 -/

set_option maxHeartbeats 4000000 in
theorem H_v72 (d : FVec Ideal S100000 .f32) (i : IVec S3300000 32) (j : IVec S3300000 32) (ws : FVec Ideal S3300000 .f32) (hd : W (Proc.devRef .tc main_v56) = d) (hi : W (Proc.devRef .tc main_v3) = i) (hj : W (Proc.devRef .tc main_v6) = j) (hws : W (Proc.devRef .tc main_v8) = ws) :
    after (sH (F := Ideal)) W (Proc.devRef .tc main_v72)
      = mulf (mulf (Host.gather gather_S100000_S3300000x1_S3300000_n_0_n_n_0_1_1 d (wrapIx i)) ws) (Host.gather gather_S100000_S3300000x1_S3300000_n_0_n_n_0_1_1 d (wrapIx j)) := by
  subst hd hi hj hws
  unfold sH
  after_read <;> rfl

theorem H_keep_v3 : after (sH (F := Ideal)) W (Proc.devRef .tc main_v3) = W (Proc.devRef .tc main_v3) := by
  unfold sH
  after_read

theorem H_keep_v6 : after (sH (F := Ideal)) W (Proc.devRef .tc main_v6) = W (Proc.devRef .tc main_v6) := by
  unfold sH
  after_read

theorem H_keep_v49 : after (sH (F := Ideal)) W (Proc.devRef .tc main_v49) = W (Proc.devRef .tc main_v49) := by
  unfold sH
  after_read

theorem H_keep_arg5 : after (sH (F := Ideal)) W (Proc.devRef .tc main_arg5) = W (Proc.devRef .tc main_arg5) := by
  unfold sH
  after_read

theorem H_keep_arg6 : after (sH (F := Ideal)) W (Proc.devRef .tc main_arg6) = W (Proc.devRef .tc main_arg6) := by
  unfold sH
  after_read

/-! ### Operations 98 to 117 -/

set_option maxHeartbeats 4000000 in
theorem I_v89 (i : IVec S3300000 32) (j : IVec S3300000 32) (n : FVec Ideal S3300000 .f32) (h : FVec Ideal S100000x16 .f32) (w2 : FVec Ideal S16x10 .f32) (b2 : FVec Ideal S10 .f32) (hi : W (Proc.devRef .tc main_v3) = i) (hj : W (Proc.devRef .tc main_v6) = j) (hn : W (Proc.devRef .tc main_v72) = n) (hh : W (Proc.devRef .tc main_v49) = h) (hw2 : W (Proc.devRef .tc main_arg5) = w2) (hb2 : W (Proc.devRef .tc main_arg6) = b2) :
    after (sI (F := Ideal)) W (Proc.devRef .tc main_v89)
      = addf (aggregate10 (F := Ideal) i j n (Host.dotGeneral (F := Ideal) dot_S100000x16_S16x10_S100000x10_1_0_0_1_n_n none h w2)) (broadcastInDim S100000x10 ![0, 1] bcast_S1x10_S100000x10_0_1 (broadcastInDim S1x10 ![1] bcast_S10_S1x10_1 b2)) := by
  subst hi hj hn hh hw2 hb2
  unfold sI
  after_read <;> rfl

/-! ### Operations 118 to 118 -/

set_option maxHeartbeats 4000000 in
theorem Ja_call3_cst   :
    after (sJa (F := Ideal)) W (Proc.devRef .tc main_call3_cst)
      = (constant (F := Ideal) S_ .f32 0xFF800000#32) := by
  unfold sJa
  after_read <;> rfl

theorem Ja_keep_v89 : after (sJa (F := Ideal)) W (Proc.devRef .tc main_v89) = W (Proc.devRef .tc main_v89) := by
  unfold sJa
  after_read

/-! ### Operations 119 to 119 -/

theorem Jb_keep_v89 : after (sJb (F := Ideal)) W (Proc.devRef .tc main_v89) = W (Proc.devRef .tc main_v89) := by
  unfold sJb
  after_read

/-! ### Operations 120 to 122 -/

set_option maxHeartbeats 4000000 in
theorem Jc_call3_v2 (m0 : FVec Ideal S100000 .f32) (hm0 : W (Proc.devRef .tc main_call3_v0) = m0) :
    after (sJc (F := Ideal)) W (Proc.devRef .tc main_call3_v2)
      = maximumf (broadcastInDim S100000 ![] bcast_S_S100000 (constant (F := Ideal) S_ .f32 0xFF800000#32)) m0 := by
  subst hm0
  unfold sJc
  after_read <;> rfl

theorem Jc_keep_v89 : after (sJc (F := Ideal)) W (Proc.devRef .tc main_v89) = W (Proc.devRef .tc main_v89) := by
  unfold sJc
  after_read

/-! ### Operations 123 to 125 -/

set_option maxHeartbeats 4000000 in
theorem J2_call3_v5 (z : FVec Ideal S100000x10 .f32) (mx : FVec Ideal S100000 .f32) (hz : W (Proc.devRef .tc main_v89) = z) (hmx : W (Proc.devRef .tc main_call3_v2) = mx) :
    after (sJ2 (F := Ideal)) W (Proc.devRef .tc main_call3_v5)
      = subf z (broadcastInDim S100000x10 ![0, 1] bcast_S100000x1_S100000x10_0_1 (broadcastInDim S100000x1 ![0] bcast_S100000_S100000x1_0 mx)) := by
  subst hz hmx
  unfold sJ2
  after_read <;> rfl

/-! ### Operations 126 to 129 -/

set_option maxHeartbeats 4000000 in
theorem J3_call3_v8 (y : FVec Ideal S100000x10 .f32) (hy : W (Proc.devRef .tc main_call3_v5) = y) :
    after (sJ3 (F := Ideal)) W (Proc.devRef .tc main_call3_v8)
      = broadcastInDim S100000x1 ![0] bcast_S100000_S100000x1_0 (Host.reduceAdd (Host.exp y) (constant (F := Ideal) S_ .f32 0x00000000#32) reducesTo_S100000x10_S100000_d1 h_S_) := by
  subst hy
  unfold sJ3
  after_read <;> rfl

theorem J3_keep_call3_v5 : after (sJ3 (F := Ideal)) W (Proc.devRef .tc main_call3_v5) = W (Proc.devRef .tc main_call3_v5) := by
  unfold sJ3
  after_read

/-! ### Operations 130 to 132 -/

set_option maxHeartbeats 4000000 in
theorem J4_v90 (y : FVec Ideal S100000x10 .f32) (s : FVec Ideal S100000x1 .f32) (hy : W (Proc.devRef .tc main_call3_v5) = y) (hs : W (Proc.devRef .tc main_call3_v8) = s) :
    after (sJ4 (F := Ideal)) W (Proc.devRef .tc main_v90)
      = subf y (broadcastInDim S100000x10 ![0, 1] bcast_S100000x1_S100000x10_0_1 (Host.log s)) := by
  subst hy hs
  unfold sJ4
  after_read <;> rfl

/-- The row maximum (operation 119): a fold of max over each row from the initial value. The operation sits in an
    outlined function, whose buffers are read and written through the identity transport of their contents; the fold is
    kept folded (it runs over every index of the array), and only the transports are removed. -/
theorem Jb_call3_v0 (z : FVec Ideal S100000x10 .f32) (c : FVec Ideal S_ .f32)
    (hz : W (Proc.devRef .tc main_v89) = z) (hc : W (Proc.devRef .tc main_call3_cst) = c) :
    after (sJb (F := Ideal)) W (Proc.devRef .tc main_call3_v0)
      = Host.reduce FloatOps.maximumf z c reducesTo_S100000x10_S100000_d1 h_S_ := by
  subst hz hc
  unfold sJb
  after_read
  have ha : (TRef.of (T := ⟨S100000x10, .f32⟩) main_v89).ofBuf (Val := Elt Ideal) (W (Proc.devRef .tc main_v89))
      = W (Proc.devRef .tc main_v89) := rfl
  have hb : (TRef.of (T := ⟨S_, .f32⟩) main_call3_cst).ofBuf (Val := Elt Ideal) (W (Proc.devRef .tc main_call3_cst))
      = W (Proc.devRef .tc main_call3_cst) := rfl
  rw [ha, hb]
  exact cast_eq _ _

end Cert.ReferenceIdeal.RefValue

end
-- ==== Proof.RefDot.lean ====
/-
  The reference's two matrix products, read at an index: each is the plain sum over the contracted axis of the
  products of the operands' entries, the same function of its operands the specification names.
-/
import proofs.«165762_j11416023073012_2_alg».proof.Proof.Gen.ReferenceIdeal
import proofs.«165762_j11416023073012_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic
open Idealize.ShloMosaic.ValueIdx

/-! ## The first product: [100000, 512] times [512, 16] -/

/-- The left operand's row coordinate is the output's. -/
theorem dot1_lhs_row (i : S100000x16.Idx) (q : dot_S100000x512_S512x16_S100000x16_1_0_0_1_n_n.contr.Idx) :
    (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl

/-- The right operand's column coordinate is the output's. -/
theorem dot1_rhs_col (i : S100000x16.Idx) (q : dot_S100000x512_S512x16_S100000x16_1_0_0_1_n_n.contr.Idx) :
    (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

theorem dot1_eq (x : FVec Ideal S100000x512 .f32) (w : FVec Ideal S512x16 .f32) :
    Host.dotGeneral (F := Ideal) dot_S100000x512_S512x16_S100000x16_1_0_0_1_n_n none x w = Cert.Spec.matProd 100000 512 16 x w := by
  funext i
  simp only [Host.dotGeneral]
  rw [Ideal.dotGeneral_apply, ← Equiv.sum_comp (contrEquiv1 dot_S100000x512_S512x16_S100000x16_1_0_0_1_n_n 512 rfl rfl).symm]
  unfold Cert.Spec.matProd
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx i ((contrEquiv1 dot_S100000x512_S512x16_S100000x16_1_0_0_1_n_n 512 rfl rfl).symm k)
      = ix2 (⟨(i 0).val, idx2_lt0 i⟩ : Fin 100000) k := funext fun a => Fin.ext (by
    match a with
    | ⟨0, _⟩ => exact dot1_lhs_row _ _
    | ⟨1, _⟩ => exact (dot_S100000x512_S512x16_S100000x16_1_0_0_1_n_n.lhsIdx_val_of_single rfl _ _).trans hk)
  have er : dot_S100000x512_S512x16_S100000x16_1_0_0_1_n_n.rhsIdx i ((contrEquiv1 dot_S100000x512_S512x16_S100000x16_1_0_0_1_n_n 512 rfl rfl).symm k)
      = ix2 k (⟨(i 1).val, idx2_lt1 i⟩ : Fin 16) := funext fun a => Fin.ext (by
    match a with
    | ⟨0, _⟩ => exact (dot_S100000x512_S512x16_S100000x16_1_0_0_1_n_n.rhsIdx_val_of_single rfl _ _).trans hk
    | ⟨1, _⟩ => exact dot1_rhs_col _ _)
  rw [el, er]

/-! ## The second product: [100000, 16] times [16, 10] -/

/-- The left operand's row coordinate is the output's. -/
theorem dot2_lhs_row (i : S100000x10.Idx) (q : dot_S100000x16_S16x10_S100000x10_1_0_0_1_n_n.contr.Idx) :
    (dot_S100000x16_S16x10_S100000x10_1_0_0_1_n_n.lhsIdx i q 0).val = (i 0).val := by
  unfold DotDims.lhsIdx
  rw [dif_neg (show ¬(0 : Fin S100000x16.rank) ∈ dot_S100000x16_S16x10_S100000x10_1_0_0_1_n_n.lhsBatch by decide), dif_pos (show (0 : Fin S100000x16.rank) ∈ dot_S100000x16_S16x10_S100000x10_1_0_0_1_n_n.lhsNonContracting by decide)]
  rfl

/-- The right operand's column coordinate is the output's. -/
theorem dot2_rhs_col (i : S100000x10.Idx) (q : dot_S100000x16_S16x10_S100000x10_1_0_0_1_n_n.contr.Idx) :
    (dot_S100000x16_S16x10_S100000x10_1_0_0_1_n_n.rhsIdx i q 1).val = (i 1).val := by
  unfold DotDims.rhsIdx
  rw [dif_neg (show ¬(1 : Fin S16x10.rank) ∈ dot_S100000x16_S16x10_S100000x10_1_0_0_1_n_n.rhsBatch by decide), dif_pos (show (1 : Fin S16x10.rank) ∈ dot_S100000x16_S16x10_S100000x10_1_0_0_1_n_n.rhsNonContracting by decide)]
  rfl

theorem dot2_eq (a : FVec Ideal S100000x16 .f32) (w : FVec Ideal S16x10 .f32) :
    Host.dotGeneral (F := Ideal) dot_S100000x16_S16x10_S100000x10_1_0_0_1_n_n none a w = Cert.Spec.matProd 100000 16 10 a w := by
  funext i
  simp only [Host.dotGeneral]
  rw [Ideal.dotGeneral_apply, ← Equiv.sum_comp (contrEquiv1 dot_S100000x16_S16x10_S100000x10_1_0_0_1_n_n 16 rfl rfl).symm]
  unfold Cert.Spec.matProd
  refine Finset.sum_congr rfl fun k _ => ?_
  have hk := contrEquiv1_symm_val dot_S100000x16_S16x10_S100000x10_1_0_0_1_n_n 16 rfl rfl k
  have el : dot_S100000x16_S16x10_S100000x10_1_0_0_1_n_n.lhsIdx i ((contrEquiv1 dot_S100000x16_S16x10_S100000x10_1_0_0_1_n_n 16 rfl rfl).symm k)
      = ix2 (⟨(i 0).val, idx2_lt0 i⟩ : Fin 100000) k := funext fun a => Fin.ext (by
    match a with
    | ⟨0, _⟩ => exact dot2_lhs_row _ _
    | ⟨1, _⟩ => exact (dot_S100000x16_S16x10_S100000x10_1_0_0_1_n_n.lhsIdx_val_of_single rfl _ _).trans hk)
  have er : dot_S100000x16_S16x10_S100000x10_1_0_0_1_n_n.rhsIdx i ((contrEquiv1 dot_S100000x16_S16x10_S100000x10_1_0_0_1_n_n 16 rfl rfl).symm k)
      = ix2 k (⟨(i 1).val, idx2_lt1 i⟩ : Fin 10) := funext fun a => Fin.ext (by
    match a with
    | ⟨0, _⟩ => exact (dot_S100000x16_S16x10_S100000x10_1_0_0_1_n_n.rhsIdx_val_of_single rfl _ _).trans hk
    | ⟨1, _⟩ => exact dot2_rhs_col _ _)
  rw [el, er]

end Cert.ReferenceIdeal.RefValue

end
-- ==== Proof.RefChain.lean ====
/-
  The reference's run with its result named: cutting @main's 132 host operations into the stretches read in the
  stretch module, the contents of the buffers after each stretch are computed from ANY launch contents — the edge
  endpoints, weights and normalization, the first product aggregated and biased, the relu, the second product
  aggregated and biased, the log-softmax — and the result buffer ends at the network's output as one function of the
  seven arguments; no operation writes an argument. The run of the whole list then states exactly that.
-/
import proofs.«165762_j11416023073012_2_alg».proof.Proof.RefRun
import proofs.«165762_j11416023073012_2_alg».proof.Proof.RefStretch
import proofs.«165762_j11416023073012_2_alg».proof.Proof.RefDot
import proofs.«165762_j11416023073012_2_alg».proof.Proof.RefBias
import proofs.«165762_j11416023073012_2_alg».proof.Proof.RefLogSoftmax
import proofs.«165762_j11416023073012_2_alg».proof.Proof.NetOut
import Idealize.ShloMosaic.Lib.Pipeline.Frame

set_option maxRecDepth 65536

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Cert.ReferenceIdeal.HostFns

/-! ## The contents after each stretch, from any launch contents W whose argument buffers hold x, e, w, w1, b1, w2, b2 -/

variable (W : Valuation τ sig (Elt Ideal))

/-- The buffers' contents after the first stretch, … after the first nine stretches. -/
abbrev X1 : Valuation τ sig (Elt Ideal) := after (sA (F := Ideal)) W
abbrev X2 : Valuation τ sig (Elt Ideal) := after (sB (F := Ideal)) (X1 W)
abbrev X3 : Valuation τ sig (Elt Ideal) := after (sC (F := Ideal)) (X2 W)
abbrev X4 : Valuation τ sig (Elt Ideal) := after (sD (F := Ideal)) (X3 W)
abbrev X5 : Valuation τ sig (Elt Ideal) := after (sE (F := Ideal)) (X4 W)
abbrev X6 : Valuation τ sig (Elt Ideal) := after (sF (F := Ideal)) (X5 W)
abbrev X7 : Valuation τ sig (Elt Ideal) := after (sG (F := Ideal)) (X6 W)
abbrev X8 : Valuation τ sig (Elt Ideal) := after (sH (F := Ideal)) (X7 W)
abbrev X9 : Valuation τ sig (Elt Ideal) := after (sI (F := Ideal)) (X8 W)

variable (x : FVec Ideal S100000x512 .f32) (e : IVec S2x3200000 32) (w : FVec Ideal S3200000 .f32)
  (w1 : FVec Ideal S512x16 .f32) (b1 : FVec Ideal S16 .f32) (w2 : FVec Ideal S16x10 .f32) (b2 : FVec Ideal S10 .f32)
variable (hx : W (Proc.devRef .tc main_arg0) = x) (he : W (Proc.devRef .tc main_arg1) = e) (hw : W (Proc.devRef .tc main_arg2) = w)
  (hw1 : W (Proc.devRef .tc main_arg3) = w1) (hb1 : W (Proc.devRef .tc main_arg4) = b1) (hw2 : W (Proc.devRef .tc main_arg5) = w2) (hb2 : W (Proc.devRef .tc main_arg6) = b2)

/-- The hidden layer: relu of the aggregated first product plus the first bias. -/
abbrev hidden : FVec Ideal S100000x16 .f32 :=
  Cert.Spec.biasRelu 100000 16
    (aggregate16 (F := Ideal) (srcIx e) (dstIx e) (norm (F := Ideal) e w) (Cert.Spec.matProd 100000 512 16 x w1))
    (broadcastInDim S1x16 ![1] bcast_S16_S1x16_1 b1)

/-- The output layer before the log-softmax: the aggregated second product plus the second bias, as the reference adds it. -/
abbrev logits : FVec Ideal S100000x10 .f32 :=
  addf (aggregate10 (F := Ideal) (srcIx e) (dstIx e) (norm (F := Ideal) e w) (Cert.Spec.matProd 100000 16 10 (hidden x e w w1 b1) w2))
    (broadcastInDim S100000x10 ![0, 1] bcast_S1x10_S100000x10_0_1 (broadcastInDim S1x10 ![1] bcast_S10_S1x10_1 b2))

/-! ### After operations 1 to 19: endpoints, weights, degrees -/
section
include he
theorem X1_v3 : X1 W (Proc.devRef .tc main_v3) = srcIx e := A_v3 W e he
theorem X1_v6 : X1 W (Proc.devRef .tc main_v6) = dstIx e := A_v6 W e he
end
section
include hw
theorem X1_v8 : X1 W (Proc.devRef .tc main_v8) = wts (F := Ideal) w := A_v8 W w hw
end
section
include he hw
theorem X1_v13 : X1 W (Proc.devRef .tc main_v13) = cmpf .ogt (deg (F := Ideal) e w) (broadcastInDim S100000 ![] bcast_S_S100000 (constant (F := Ideal) S_ .f32 0x00000000#32)) := A_v13 W e w he hw
theorem X1_v14 : X1 W (Proc.devRef .tc main_v14) = Host.rsqrt (deg (F := Ideal) e w) := A_v14 W e w he hw
end
theorem X1_cst_2 : X1 W (Proc.devRef .tc main_cst_2) = (constant (F := Ideal) S_ .f32 0x00000000#32) := A_cst_2 W
section
include hx
theorem X1_arg0 : X1 W (Proc.devRef .tc main_arg0) = x := (A_keep_arg0 W).trans hx
end
section
include hw1
theorem X1_arg3 : X1 W (Proc.devRef .tc main_arg3) = w1 := (A_keep_arg3 W).trans hw1
end
section
include hb1
theorem X1_arg4 : X1 W (Proc.devRef .tc main_arg4) = b1 := (A_keep_arg4 W).trans hb1
end
section
include hw2
theorem X1_arg5 : X1 W (Proc.devRef .tc main_arg5) = w2 := (A_keep_arg5 W).trans hw2
end
section
include hb2
theorem X1_arg6 : X1 W (Proc.devRef .tc main_arg6) = b2 := (A_keep_arg6 W).trans hb2
end

/-! ### After operations 20 to 22: the inverse square roots of the degrees -/
section
include he hw
theorem X2_v15 : X2 W (Proc.devRef .tc main_v15) = dinv (F := Ideal) e w :=
  B_v15 (X1 W) _ _ _ (X1_v13 W e w he hw) (X1_v14 W e w he hw) (X1_cst_2 W)
end
section
include he
theorem X2_v3 : X2 W (Proc.devRef .tc main_v3) = srcIx e := (B_keep_v3 (X1 W)).trans (X1_v3 W e he)
end
section
include he
theorem X2_v6 : X2 W (Proc.devRef .tc main_v6) = dstIx e := (B_keep_v6 (X1 W)).trans (X1_v6 W e he)
end
section
include hw
theorem X2_v8 : X2 W (Proc.devRef .tc main_v8) = wts (F := Ideal) w := (B_keep_v8 (X1 W)).trans (X1_v8 W w hw)
end
section
include hx
theorem X2_arg0 : X2 W (Proc.devRef .tc main_arg0) = x := (B_keep_arg0 (X1 W)).trans (X1_arg0 W x hx)
end
section
include hw1
theorem X2_arg3 : X2 W (Proc.devRef .tc main_arg3) = w1 := (B_keep_arg3 (X1 W)).trans (X1_arg3 W w1 hw1)
end
section
include hb1
theorem X2_arg4 : X2 W (Proc.devRef .tc main_arg4) = b1 := (B_keep_arg4 (X1 W)).trans (X1_arg4 W b1 hb1)
end
section
include hw2
theorem X2_arg5 : X2 W (Proc.devRef .tc main_arg5) = w2 := (B_keep_arg5 (X1 W)).trans (X1_arg5 W w2 hw2)
end
section
include hb2
theorem X2_arg6 : X2 W (Proc.devRef .tc main_arg6) = b2 := (B_keep_arg6 (X1 W)).trans (X1_arg6 W b2 hb2)
end

/-! ### After operations 23 to 42: the normalization of every edge -/
section
include he hw
theorem X3_v31 : X3 W (Proc.devRef .tc main_v31) = norm (F := Ideal) e w :=
  C_v31 (X2 W) _ _ _ _ (X2_v15 W e w he hw) (X2_v3 W e he) (X2_v6 W e he) (X2_v8 W w hw)
end
section
include he
theorem X3_v3 : X3 W (Proc.devRef .tc main_v3) = srcIx e := (C_keep_v3 (X2 W)).trans (X2_v3 W e he)
end
section
include he
theorem X3_v6 : X3 W (Proc.devRef .tc main_v6) = dstIx e := (C_keep_v6 (X2 W)).trans (X2_v6 W e he)
end
section
include hw
theorem X3_v8 : X3 W (Proc.devRef .tc main_v8) = wts (F := Ideal) w := (C_keep_v8 (X2 W)).trans (X2_v8 W w hw)
end
section
include hx
theorem X3_arg0 : X3 W (Proc.devRef .tc main_arg0) = x := (C_keep_arg0 (X2 W)).trans (X2_arg0 W x hx)
end
section
include hw1
theorem X3_arg3 : X3 W (Proc.devRef .tc main_arg3) = w1 := (C_keep_arg3 (X2 W)).trans (X2_arg3 W w1 hw1)
end
section
include hb1
theorem X3_arg4 : X3 W (Proc.devRef .tc main_arg4) = b1 := (C_keep_arg4 (X2 W)).trans (X2_arg4 W b1 hb1)
end
section
include hw2
theorem X3_arg5 : X3 W (Proc.devRef .tc main_arg5) = w2 := (C_keep_arg5 (X2 W)).trans (X2_arg5 W w2 hw2)
end
section
include hb2
theorem X3_arg6 : X3 W (Proc.devRef .tc main_arg6) = b2 := (C_keep_arg6 (X2 W)).trans (X2_arg6 W b2 hb2)
end

/-! ### After operations 43 to 62: the first product, aggregated, plus the first bias -/
section
include hx he hw hw1 hb1
theorem X4_v48 : X4 W (Proc.devRef .tc main_v48)
    = addf (aggregate16 (F := Ideal) (srcIx e) (dstIx e) (norm (F := Ideal) e w)
        (Host.dotGeneral (F := Ideal) dot_S100000x512_S512x16_S100000x16_1_0_0_1_n_n none x w1))
      (broadcastInDim S100000x16 ![0, 1] bcast_S1x16_S100000x16_0_1 (broadcastInDim S1x16 ![1] bcast_S16_S1x16_1 b1)) :=
  D_v48 (X3 W) _ _ _ _ _ _ (X3_v3 W e he) (X3_v6 W e he) (X3_v31 W e w he hw) (X3_arg0 W x hx) (X3_arg3 W w1 hw1) (X3_arg4 W b1 hb1)
end
section
include he
theorem X4_v3 : X4 W (Proc.devRef .tc main_v3) = srcIx e := (D_keep_v3 (X3 W)).trans (X3_v3 W e he)
end
section
include he
theorem X4_v6 : X4 W (Proc.devRef .tc main_v6) = dstIx e := (D_keep_v6 (X3 W)).trans (X3_v6 W e he)
end
section
include hw
theorem X4_v8 : X4 W (Proc.devRef .tc main_v8) = wts (F := Ideal) w := (D_keep_v8 (X3 W)).trans (X3_v8 W w hw)
end
section
include hw2
theorem X4_arg5 : X4 W (Proc.devRef .tc main_arg5) = w2 := (D_keep_arg5 (X3 W)).trans (X3_arg5 W w2 hw2)
end
section
include hb2
theorem X4_arg6 : X4 W (Proc.devRef .tc main_arg6) = b2 := (D_keep_arg6 (X3 W)).trans (X3_arg6 W b2 hb2)
end

/-! ### After operations 63 to 65: the relu -/
section
include hx he hw hw1 hb1
theorem X5_v49 : X5 W (Proc.devRef .tc main_v49) = hidden x e w w1 b1 :=
  (E_v49 (X4 W) _ (X4_v48 W x e w w1 b1 hx he hw hw1 hb1)).trans (by rw [biasRelu_ref, dot1_eq])
end
section
include he
theorem X5_v3 : X5 W (Proc.devRef .tc main_v3) = srcIx e := (E_keep_v3 (X4 W)).trans (X4_v3 W e he)
end
section
include he
theorem X5_v6 : X5 W (Proc.devRef .tc main_v6) = dstIx e := (E_keep_v6 (X4 W)).trans (X4_v6 W e he)
end
section
include hw
theorem X5_v8 : X5 W (Proc.devRef .tc main_v8) = wts (F := Ideal) w := (E_keep_v8 (X4 W)).trans (X4_v8 W w hw)
end
section
include hw2
theorem X5_arg5 : X5 W (Proc.devRef .tc main_arg5) = w2 := (E_keep_arg5 (X4 W)).trans (X4_arg5 W w2 hw2)
end
section
include hb2
theorem X5_arg6 : X5 W (Proc.devRef .tc main_arg6) = b2 := (E_keep_arg6 (X4 W)).trans (X4_arg6 W b2 hb2)
end

/-! ### After operations 66 to 74: the degrees, computed a second time -/
section
include he hw
theorem X6_v54 : X6 W (Proc.devRef .tc main_v54) = cmpf .ogt (deg (F := Ideal) e w) (broadcastInDim S100000 ![] bcast_S_S100000 (constant (F := Ideal) S_ .f32 0x00000000#32)) :=
  F_v54 (X5 W) _ _ (X5_v6 W e he) (X5_v8 W w hw)
theorem X6_v55 : X6 W (Proc.devRef .tc main_v55) = Host.rsqrt (deg (F := Ideal) e w) :=
  F_v55 (X5 W) _ _ (X5_v6 W e he) (X5_v8 W w hw)
end
theorem X6_cst_11 : X6 W (Proc.devRef .tc main_cst_11) = (constant (F := Ideal) S_ .f32 0x00000000#32) := F_cst_11 (X5 W)
section
include he
theorem X6_v3 : X6 W (Proc.devRef .tc main_v3) = srcIx e := (F_keep_v3 (X5 W)).trans (X5_v3 W e he)
end
section
include he
theorem X6_v6 : X6 W (Proc.devRef .tc main_v6) = dstIx e := (F_keep_v6 (X5 W)).trans (X5_v6 W e he)
end
section
include hw
theorem X6_v8 : X6 W (Proc.devRef .tc main_v8) = wts (F := Ideal) w := (F_keep_v8 (X5 W)).trans (X5_v8 W w hw)
end
section
include hx he hw hw1 hb1
theorem X6_v49 : X6 W (Proc.devRef .tc main_v49) = hidden x e w w1 b1 := (F_keep_v49 (X5 W)).trans (X5_v49 W x e w w1 b1 hx he hw hw1 hb1)
end
section
include hw2
theorem X6_arg5 : X6 W (Proc.devRef .tc main_arg5) = w2 := (F_keep_arg5 (X5 W)).trans (X5_arg5 W w2 hw2)
end
section
include hb2
theorem X6_arg6 : X6 W (Proc.devRef .tc main_arg6) = b2 := (F_keep_arg6 (X5 W)).trans (X5_arg6 W b2 hb2)
end

/-! ### After operations 75 to 77 -/
section
include he hw
theorem X7_v56 : X7 W (Proc.devRef .tc main_v56) = dinv (F := Ideal) e w :=
  G_v56 (X6 W) _ _ _ (X6_v54 W e w he hw) (X6_v55 W e w he hw) (X6_cst_11 W)
end
section
include he
theorem X7_v3 : X7 W (Proc.devRef .tc main_v3) = srcIx e := (G_keep_v3 (X6 W)).trans (X6_v3 W e he)
end
section
include he
theorem X7_v6 : X7 W (Proc.devRef .tc main_v6) = dstIx e := (G_keep_v6 (X6 W)).trans (X6_v6 W e he)
end
section
include hw
theorem X7_v8 : X7 W (Proc.devRef .tc main_v8) = wts (F := Ideal) w := (G_keep_v8 (X6 W)).trans (X6_v8 W w hw)
end
section
include hx he hw hw1 hb1
theorem X7_v49 : X7 W (Proc.devRef .tc main_v49) = hidden x e w w1 b1 := (G_keep_v49 (X6 W)).trans (X6_v49 W x e w w1 b1 hx he hw hw1 hb1)
end
section
include hw2
theorem X7_arg5 : X7 W (Proc.devRef .tc main_arg5) = w2 := (G_keep_arg5 (X6 W)).trans (X6_arg5 W w2 hw2)
end
section
include hb2
theorem X7_arg6 : X7 W (Proc.devRef .tc main_arg6) = b2 := (G_keep_arg6 (X6 W)).trans (X6_arg6 W b2 hb2)
end

/-! ### After operations 78 to 97: the normalization, computed a second time -/
section
include he hw
theorem X8_v72 : X8 W (Proc.devRef .tc main_v72) = norm (F := Ideal) e w :=
  H_v72 (X7 W) _ _ _ _ (X7_v56 W e w he hw) (X7_v3 W e he) (X7_v6 W e he) (X7_v8 W w hw)
end
section
include he
theorem X8_v3 : X8 W (Proc.devRef .tc main_v3) = srcIx e := (H_keep_v3 (X7 W)).trans (X7_v3 W e he)
end
section
include he
theorem X8_v6 : X8 W (Proc.devRef .tc main_v6) = dstIx e := (H_keep_v6 (X7 W)).trans (X7_v6 W e he)
end
section
include hx he hw hw1 hb1
theorem X8_v49 : X8 W (Proc.devRef .tc main_v49) = hidden x e w w1 b1 := (H_keep_v49 (X7 W)).trans (X7_v49 W x e w w1 b1 hx he hw hw1 hb1)
end
section
include hw2
theorem X8_arg5 : X8 W (Proc.devRef .tc main_arg5) = w2 := (H_keep_arg5 (X7 W)).trans (X7_arg5 W w2 hw2)
end
section
include hb2
theorem X8_arg6 : X8 W (Proc.devRef .tc main_arg6) = b2 := (H_keep_arg6 (X7 W)).trans (X7_arg6 W b2 hb2)
end

/-! ### After operations 98 to 117: the second product, aggregated, plus the second bias -/
section
include hx he hw hw1 hb1 hw2 hb2
theorem X9_v89 : X9 W (Proc.devRef .tc main_v89) = logits x e w w1 b1 w2 b2 :=
  (I_v89 (X8 W) _ _ _ _ _ _ (X8_v3 W e he) (X8_v6 W e he) (X8_v72 W e w he hw) (X8_v49 W x e w w1 b1 hx he hw hw1 hb1)
    (X8_arg5 W w2 hw2) (X8_arg6 W b2 hb2)).trans (by rw [dot2_eq])
end

/-! ## The log-softmax stretches (operations 118 to 132), from any contents V whose buffer of the logits holds z -/

theorem tail_v90 (V : Valuation τ sig (Elt Ideal)) (z : FVec Ideal S100000x10 .f32) (hz : V (Proc.devRef .tc main_v89) = z) :
    after (sJ4 (F := Ideal)) (after (sJ3 (F := Ideal)) (after (sJ2 (F := Ideal)) (after (sJc (F := Ideal))
      (after (sJb (F := Ideal)) (after (sJa (F := Ideal)) V))))) (Proc.devRef .tc main_v90) = logSoftmaxChain z := by
  have a1 := Ja_call3_cst V
  have k1 := (Ja_keep_v89 V).trans hz
  have a2 := Jb_call3_v0 _ _ _ k1 a1
  have k2 := (Jb_keep_v89 _).trans k1
  have a3 := Jc_call3_v2 _ _ a2
  have k3 := (Jc_keep_v89 _).trans k2
  have a4 := J2_call3_v5 _ _ _ k3 a3
  have a5 := J3_call3_v8 _ _ a4
  have k5 := (J3_keep_call3_v5 _).trans a4
  refine (J4_v90 _ _ _ k5 a5).trans ?_
  unfold logSoftmaxChain
  with_reducible rfl

/-! ## The whole list -/

/-- @main's 132 operations are the fifteen stretches in a row. -/
theorem ops_split : (Cert.ReferenceIdeal.ValueP.ops (F := Ideal))
    = sA ++ sB ++ sC ++ sD ++ sE ++ sF ++ sG ++ sH ++ sI ++ sJa ++ sJb ++ sJc ++ sJ2 ++ sJ3 ++ sJ4 := rfl

section
include hx he hw hw1 hb1 hw2 hb2
/-- The result buffer after all 132 operations holds the network's output. -/
theorem out_eq : after (Cert.ReferenceIdeal.ValueP.ops (F := Ideal)) W (Proc.devRef .tc main_v90) = netOut x e w w1 b1 w2 b2 := by
  rw [ops_split]
  simp only [StableHlo.after_append]
  exact (tail_v90 (X9 W) _ (X9_v89 W x e w w1 b1 w2 b2 hx he hw hw1 hb1 hw2 hb2)).trans (logSoftmaxChain_eq _ _)
end

set_option maxHeartbeats 4000000 in
/-- No operation writes argument 0. -/
theorem ops_keep_arg0 (W : Valuation τ sig (Elt Ideal)) :
    after (Cert.ReferenceIdeal.ValueP.ops (F := Ideal)) W (Proc.devRef .tc main_arg0) = W (Proc.devRef .tc main_arg0) := by
  unfold Cert.ReferenceIdeal.ValueP.ops
  after_read

set_option maxHeartbeats 4000000 in
/-- No operation writes argument 1. -/
theorem ops_keep_arg1 (W : Valuation τ sig (Elt Ideal)) :
    after (Cert.ReferenceIdeal.ValueP.ops (F := Ideal)) W (Proc.devRef .tc main_arg1) = W (Proc.devRef .tc main_arg1) := by
  unfold Cert.ReferenceIdeal.ValueP.ops
  after_read

set_option maxHeartbeats 4000000 in
/-- No operation writes argument 2. -/
theorem ops_keep_arg2 (W : Valuation τ sig (Elt Ideal)) :
    after (Cert.ReferenceIdeal.ValueP.ops (F := Ideal)) W (Proc.devRef .tc main_arg2) = W (Proc.devRef .tc main_arg2) := by
  unfold Cert.ReferenceIdeal.ValueP.ops
  after_read

set_option maxHeartbeats 4000000 in
/-- No operation writes argument 3. -/
theorem ops_keep_arg3 (W : Valuation τ sig (Elt Ideal)) :
    after (Cert.ReferenceIdeal.ValueP.ops (F := Ideal)) W (Proc.devRef .tc main_arg3) = W (Proc.devRef .tc main_arg3) := by
  unfold Cert.ReferenceIdeal.ValueP.ops
  after_read

set_option maxHeartbeats 4000000 in
/-- No operation writes argument 4. -/
theorem ops_keep_arg4 (W : Valuation τ sig (Elt Ideal)) :
    after (Cert.ReferenceIdeal.ValueP.ops (F := Ideal)) W (Proc.devRef .tc main_arg4) = W (Proc.devRef .tc main_arg4) := by
  unfold Cert.ReferenceIdeal.ValueP.ops
  after_read

set_option maxHeartbeats 4000000 in
/-- No operation writes argument 5. -/
theorem ops_keep_arg5 (W : Valuation τ sig (Elt Ideal)) :
    after (Cert.ReferenceIdeal.ValueP.ops (F := Ideal)) W (Proc.devRef .tc main_arg5) = W (Proc.devRef .tc main_arg5) := by
  unfold Cert.ReferenceIdeal.ValueP.ops
  after_read

set_option maxHeartbeats 4000000 in
/-- No operation writes argument 6. -/
theorem ops_keep_arg6 (W : Valuation τ sig (Elt Ideal)) :
    after (Cert.ReferenceIdeal.ValueP.ops (F := Ideal)) W (Proc.devRef .tc main_arg6) = W (Proc.devRef .tc main_arg6) := by
  unfold Cert.ReferenceIdeal.ValueP.ops
  after_read

/-! ## The run -/

/-- On every device, from any memory with zero counters: every weakly fair execution of the reference's @main
    terminates with the result buffer at the network's output of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v90) = Cert.ReferenceIdeal.HostFns.netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v90).trans
        (out_eq (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) rfl rfl rfl rfl rfl rfl rfl),
      (h c main_arg0).trans (ops_keep_arg0 _),
      (h c main_arg1).trans (ops_keep_arg1 _),
      (h c main_arg2).trans (ops_keep_arg2 _),
      (h c main_arg3).trans (ops_keep_arg3 _),
      (h c main_arg4).trans (ops_keep_arg4 _),
      (h c main_arg5).trans (ops_keep_arg5 _),
      (h c main_arg6).trans (ops_keep_arg6 _)⟩)
    (Cert.ReferenceIdeal.ValueP.run_after m ρ)

end Cert.ReferenceIdeal.RefValue

end
-- ==== Proof.lean ====
/-
  The certificate of a two-layer graph-convolution network: a kernel program that computes the dense parts in three
  tiled regions (x · W1; relu (agg + b1) · W2; the row-wise log-softmax of agg + b2, each over row tiles of 5000 of the
  100000 nodes) and the edge aggregations on the host between them, against a reference that computes everything on the
  host. Read on the extended reals the two are one function of the seven arguments, `netOut`:

    log_softmax (Â · relu (Â · (x · W1) + b1) · W2 + b2),   Â = D^(-1/2) (A + I) D^(-1/2),

  because (i) the graph side — endpoints with self loops, degrees, the normalization, gather and scatter-add — is the
  same chain of host operations in both programs; (ii) a tile's matrix product is the rows' sums of products, which a
  whole-array `dot_general` is too, and the tiles cover the rows; a change of float format is the identity; (iii) the
  kernel's bias row, relu and log-softmax are index by index what the reference's broadcasts, maximum and
  reduce / exp / log chain compute (max (−∞) μ = μ for the row maximum μ). No law is used that fails at ±∞: only
  commutativity and associativity of sums, so the precondition is not opened.

  The three frames: the two kernel programs' are the generated frame proofs; the reference's is its run with the
  result dropped. The idealization rewrote nothing, so `preserves` is trivial.
-/
import proofs.«165762_j11416023073012_2_alg».proof.Defs
import proofs.«165762_j11416023073012_2_alg».proof.Proof.Gen.Kernel
import proofs.«165762_j11416023073012_2_alg».proof.Proof.Gen.Kernel.Skeleton
import proofs.«165762_j11416023073012_2_alg».proof.Proof.Gen.Kernel.Launch
import proofs.«165762_j11416023073012_2_alg».proof.Proof.Gen.Kernel.Points
import proofs.«165762_j11416023073012_2_alg».proof.Proof.Gen.Kernel.Frame
import proofs.«165762_j11416023073012_2_alg».proof.Proof.Gen.KernelIdeal
import proofs.«165762_j11416023073012_2_alg».proof.Proof.Gen.KernelIdeal.Skeleton
import proofs.«165762_j11416023073012_2_alg».proof.Proof.Gen.KernelIdeal.Launch
import proofs.«165762_j11416023073012_2_alg».proof.Proof.Gen.KernelIdeal.Points
import proofs.«165762_j11416023073012_2_alg».proof.Proof.Gen.KernelIdeal.Frame
import proofs.«165762_j11416023073012_2_alg».proof.Proof.Gen.ReferenceIdeal
import proofs.«165762_j11416023073012_2_alg».proof.Proof.Gen.Pre_finite_inputs
import proofs.«165762_j11416023073012_2_alg».proof.Proof.KernelRun
import proofs.«165762_j11416023073012_2_alg».proof.Proof.KernelValue
import proofs.«165762_j11416023073012_2_alg».proof.Proof.RefChain
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame proof. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RefValue.ref_run m ρ)

/-- The idealized kernel's run with its result computed: the network's function of the launch contents. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64) = Cert.ReferenceIdeal.HostFns.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun _ h c => ⟨(h c).1.trans (Cert.KernelIdeal.HostValue.kernel_value m ρ c), (h c).2⟩)
    (Cert.KernelIdeal.RunValue.run_value (F := Ideal) m ρ)

/-- From memories agreeing on the arguments both idealized programs end with the same result, the network's function of
    the arguments, and their arguments unchanged. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
